-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x64 : Shape := ⟨2, ![10000, 64]⟩
abbrev S10000x128 : Shape := ⟨2, ![10000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 122
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S1x1600000, .i32⟩
  | .hbm, ⟨65, _⟩ => ⟨S1600000, .i32⟩
  | .hbm, ⟨66, _⟩ => ⟨S1x1600000, .i32⟩
  | .hbm, ⟨67, _⟩ => ⟨S1600000, .i32⟩
  | .hbm, ⟨68, _⟩ => ⟨S100000, .i32⟩
  | .hbm, ⟨69, _⟩ => ⟨S1700000, .i32⟩
  | .hbm, ⟨70, _⟩ => ⟨S1700000, .i32⟩
  | .hbm, ⟨71, _⟩ => ⟨S_, .f32⟩
  | .hbm, ⟨72, _⟩ => ⟨S1700000, .f32⟩
  | .hbm, ⟨73, _⟩ => ⟨S_, .f32⟩
  | .hbm, ⟨74, _⟩ => ⟨S100000, .f32⟩
  | .hbm, ⟨75, _⟩ => ⟨S1700000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .i1⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S100000x64, .f32⟩
  | .hbm, ⟨104, _⟩ => ⟨S_, .i32⟩
  | .hbm, ⟨105, _⟩ => ⟨S1700000, .i32⟩
  | .hbm, ⟨106, _⟩ => ⟨S1700000, .i1⟩
  | .hbm, ⟨107, _⟩ => ⟨S_, .i32⟩
  | .hbm, ⟨108, _⟩ => ⟨S1700000, .i32⟩
  | .hbm, ⟨109, _⟩ => ⟨S1700000, .i32⟩
  | .hbm, ⟨110, _⟩ => ⟨S1700000, .i32⟩
  | .hbm, ⟨111, _⟩ => ⟨S1700000x1, .i32⟩
  | .hbm, ⟨112, _⟩ => ⟨S1700000x64, .f32⟩
  | .hbm, ⟨113, _⟩ => ⟨S1700000x1, .f32⟩
  | .hbm, ⟨114, _⟩ => ⟨S1700000x64, .f32⟩
  | .hbm, ⟨115, _⟩ => ⟨S1700000x64, .f32⟩
  | .hbm, ⟨116, _⟩ => ⟨S_, .f32⟩
  | .hbm, ⟨117, _⟩ => ⟨S100000x64, .f32⟩
  | .hbm, ⟨118, _⟩ => ⟨S1700000x1, .i32⟩
  | .hbm, ⟨119, _⟩ => ⟨S100000x64, .f32⟩
  | .hbm, ⟨120, _⟩ => ⟨S1x64, .f32⟩
  | .hbm, ⟨121, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_c_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_15 : Ref sig .tc := ⟨.hbm, 93, rfl⟩
abbrev main_v70 : Ref sig .tc := ⟨.hbm, 94, rfl⟩
abbrev main_v71 : Ref sig .tc := ⟨.hbm, 95, rfl⟩
abbrev main_c_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_17 : Ref sig .tc := ⟨.hbm, 104, rfl⟩
abbrev main_v79 : Ref sig .tc := ⟨.hbm, 105, rfl⟩
abbrev main_v80 : Ref sig .tc := ⟨.hbm, 106, rfl⟩
abbrev main_c_18 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_19 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v91) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x128, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x1600000, .i32⟩
  | 70 => ⟨S1600000, .i32⟩
  | 71 => ⟨S1x1600000, .i32⟩
  | 72 => ⟨S1600000, .i32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x64, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x1, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  @main is four TensorCore regions among stretches of host operations. The generated frame certificate runs @main as
  that chain of segments and reads, off the last thread state, that the six argument arrays end as launched. The same
  chain of segments ends with EVERY unscoped buffer at the last boundary's contents; read there also at the result
  buffer, it says what the kernel returns: the contents the fourth region leaves in its output array.
-/
import proofs.«174836_j77653008712280_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting; the result buffer ends at the last
    boundary's contents and the six argument arrays end as launched. -/
theorem run_named : θ_run defs (onTc (τ := τ) (main (F := F))) ⟨m, fun _ => 0, ρ⟩ (fun r => ∀ c : Dev nD,
      r.2.mem ((c.tc : Thread nD τ).loc main_v93) = W12 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v93 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.KernelIdeal.Named

end
-- ==== Proof.RefRun.lean ====
/-
  The reference program's run, read as a straight line of host operations.

  The reference is a two-layer graph convolution written in plain array operations: per layer an index side (edge lists with
  self loops, degrees, symmetric normalisation weights), a dense product, a gather-scale-scatter aggregation, and a bias
  (with a rectifier after the first layer). Its @main is one line of 123 host operations; the functions it calls (the
  select behind `where`, the maximum behind `relu`) stand inline at their call sites. Every weakly fair execution of
  that line terminates with each buffer at the fold of the operations over the launch contents (`run`).

  The line is cut into twelve consecutive pieces — the index side in three stages, product, aggregation, bias, twice — and
  `U1a, U1b, U1, U2, … U8` name the buffer contents after each piece, so that a value proof can go through the line one piece at a time (`after_ops`).
-/
import proofs.«174836_j77653008712280_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other folds the second from where the first ends. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Layer 1, the index side, first stage: source and target lists with the self loops appended, the in-degree of every node (ones summed by target), its comparison with zero and its inverse square root. -/
abbrev idx1aOps : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Layer 1, the index side, second stage: the inverse square root where the degree is positive, zero elsewhere (the select behind `where`, inline). -/
abbrev idx1bOps : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Layer 1, the index side, third stage: the per-edge weight, the product of the two end points' factors (negative indices wrapped, as a gather's are). -/
abbrev idx1cOps : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Layer 1, the dense product of the features with the first weight matrix. -/
abbrev dot1Ops : List (HloOp τ sig (Elt F)) :=
  [ binary main_arg0 main_arg2 main_v30 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)) ]

/-- Layer 1, the aggregation: rows of the product gathered by source, scaled by the edge weight, summed by target. -/
abbrev agg1Ops : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Layer 1, the bias row added to every row, then the rectifier (the maximum behind `relu`, inline). -/
abbrev bias1Ops : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- Layer 2, the index side, first stage (the same lines as in layer 1, on fresh buffers). -/
abbrev idx2aOps : List (HloOp τ sig (Elt F)) :=
  [ unary main_arg1 main_v48 ((extractStridedSlice S1x1600000 ![0, 0] · slices_S2x1600000_S1x1600000_0_0) : (⟨S2x1600000, .i32⟩ : BufTy).Contents (Elt F) → (⟨S1x1600000, .i32⟩ : BufTy).Contents (Elt F)),
    reshape main_v48 main_v49 rfl shapeCasts_S1x1600000_S1600000,
    unary main_arg1 main_v50 ((extractStridedSlice S1x1600000 ![1, 0] · slices_S2x1600000_S1x1600000_1_0) : (⟨S2x1600000, .i32⟩ : BufTy).Contents (Elt F) → (⟨S1x1600000, .i32⟩ : BufTy).Contents (Elt F)),
    reshape main_v50 main_v51 rfl shapeCasts_S1x1600000_S1600000,
    nullary main_v52 (iotaInDim S100000 32 0),
    binary main_v49 main_v52 main_v53 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v51 main_v52 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v55 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32) ]

/-- Layer 2, the index side, second stage. -/
abbrev idx2bOps : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select ]

/-- Layer 2, the index side, third stage. -/
abbrev idx2cOps : List (HloOp τ sig (Elt F)) :=
  [ nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v53 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v53 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v53 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v54 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v54 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v54 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)) ]

/-- Layer 2, the dense product of the hidden features with the second weight matrix. -/
abbrev dot2Ops : List (HloOp τ sig (Elt F)) :=
  [ binary main_v47 main_arg4 main_v78 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Layer 2, the aggregation. -/
abbrev agg2Ops : List (HloOp τ sig (Elt F)) :=
  [ nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v53 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v53 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v53 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x64 ![0, 1] bcast_S1700000x1_S1700000x64_0_1 : (⟨S1700000x1, .f32⟩ : BufTy).Contents (Elt F) → (⟨S1700000x64, .f32⟩ : BufTy).Contents (Elt F)),
    binary main_v85 main_v87 main_v88 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v89 (broadcastInDim S100000x64 ![] bcast_S_S100000x64 : (⟨S_, .f32⟩ : BufTy).Contents (Elt F) → (⟨S100000x64, .f32⟩ : BufTy).Contents (Elt F)),
    unary main_v54 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Layer 2, the bias row added to every row: the result. -/
abbrev bias2Ops : List (HloOp τ sig (Elt F)) :=
  [ unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v91 main_v93 main_v94 (addf : (⟨S100000x64, .f32⟩ : BufTy).Contents (Elt F) → (⟨S100000x64, .f32⟩ : BufTy).Contents (Elt F) → (⟨S100000x64, .f32⟩ : BufTy).Contents (Elt F)) ]

/-- @main's 123 operations, in order. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    unary main_arg1 main_v48 ((extractStridedSlice S1x1600000 ![0, 0] · slices_S2x1600000_S1x1600000_0_0) : (⟨S2x1600000, .i32⟩ : BufTy).Contents (Elt F) → (⟨S1x1600000, .i32⟩ : BufTy).Contents (Elt F)),
    reshape main_v48 main_v49 rfl shapeCasts_S1x1600000_S1600000,
    unary main_arg1 main_v50 ((extractStridedSlice S1x1600000 ![1, 0] · slices_S2x1600000_S1x1600000_1_0) : (⟨S2x1600000, .i32⟩ : BufTy).Contents (Elt F) → (⟨S1x1600000, .i32⟩ : BufTy).Contents (Elt F)),
    reshape main_v50 main_v51 rfl shapeCasts_S1x1600000_S1600000,
    nullary main_v52 (iotaInDim S100000 32 0),
    binary main_v49 main_v52 main_v53 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v51 main_v52 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v55 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select,
    nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v53 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v53 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v53 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v54 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v54 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v54 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)),
    binary main_v47 main_arg4 main_v78 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v53 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v53 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v53 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x64 ![0, 1] bcast_S1700000x1_S1700000x64_0_1 : (⟨S1700000x1, .f32⟩ : BufTy).Contents (Elt F) → (⟨S1700000x64, .f32⟩ : BufTy).Contents (Elt F)),
    binary main_v85 main_v87 main_v88 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v89 (broadcastInDim S100000x64 ![] bcast_S_S100000x64 : (⟨S_, .f32⟩ : BufTy).Contents (Elt F) → (⟨S100000x64, .f32⟩ : BufTy).Contents (Elt F)),
    unary main_v54 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v91 main_v93 main_v94 (addf : (⟨S100000x64, .f32⟩ : BufTy).Contents (Elt F) → (⟨S100000x64, .f32⟩ : BufTy).Contents (Elt F) → (⟨S100000x64, .f32⟩ : BufTy).Contents (Elt F)) ]

/-- The line is its twelve pieces, in order. -/
theorem ops_eq : (ops : List (HloOp τ sig (Elt F))) = idx1aOps ++ (idx1bOps ++ (idx1cOps ++ (dot1Ops ++ (agg1Ops ++ (bias1Ops ++ (idx2aOps ++ (idx2bOps ++ (idx2cOps ++ (dot2Ops ++ (agg2Ops ++ (bias2Ops))))))))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- On every device, from any memory with zero counters: every weakly fair execution of @main terminates, and every
    buffer ends at the fold of the 123 operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The buffer contents after each piece -/

variable (m : (ℓ : Loc nD τ sig) → Buf (Elt F) ℓ) (c : Dev nD)

/-- The launch contents. -/
def U0 : Valuation τ sig (Elt F) := launchContents m c
def U1a : Valuation τ sig (Elt F) := after idx1aOps (U0 m c)
def U1b : Valuation τ sig (Elt F) := after idx1bOps (U1a m c)
def U1 : Valuation τ sig (Elt F) := after idx1cOps (U1b m c)
def U2 : Valuation τ sig (Elt F) := after dot1Ops (U1 m c)
def U3 : Valuation τ sig (Elt F) := after agg1Ops (U2 m c)
def U4 : Valuation τ sig (Elt F) := after bias1Ops (U3 m c)
def U5a : Valuation τ sig (Elt F) := after idx2aOps (U4 m c)
def U5b : Valuation τ sig (Elt F) := after idx2bOps (U5a m c)
def U5 : Valuation τ sig (Elt F) := after idx2cOps (U5b m c)
def U6 : Valuation τ sig (Elt F) := after dot2Ops (U5 m c)
def U7 : Valuation τ sig (Elt F) := after agg2Ops (U6 m c)
def U8 : Valuation τ sig (Elt F) := after bias2Ops (U7 m c)

/-- The whole line's fold is the last piece's. -/
theorem after_ops : after ops (launchContents m c) = U8 m c := by
  rw [ops_eq]
  simp only [after_append]
  rfl

end Cert.ReferenceIdeal.HostRun

end
-- ==== Proof.BridgeArgs.lean ====
/-
  The argument arrays are never written.

  No host operation of either program writes an argument array, and no region of the kernel writes one (a region only
  stages its input windows). So at every boundary of either program an argument array still holds its launch contents.
  Stated here at the boundaries where the value proof reads an argument.
-/
import proofs.«174836_j77653008712280_1_alg».proof.Proof.KernelRun
import proofs.«174836_j77653008712280_1_alg».proof.Proof.RefRun
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal.Gen Cert.ReferenceIdeal.HostRun

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- Reads every buffer a fold of host operations is asked for: first in one pass that visits a shared operand once,
    then read by read for the operands sitting inside a list of pieces to be joined. -/
macro "host_line" : tactic =>
  `(tactic| (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']; repeat (first | rw [nullary_result] | rw [unary_result] | rw [binary_result] | rw [ternary_result] | rw [reshape_result] | (rw [nullary_result_ne]; rotate_left; decide) | (rw [unary_result_ne]; rotate_left; decide) | (rw [binary_result_ne]; rotate_left; decide) | (rw [ternary_result_ne]; rotate_left; decide) | (rw [reshape_result_ne]; rotate_left; decide))))

/-! ## The reference's side -/

theorem U0_arg0 : U0 m' c (Proc.devRef .tc Cert.ReferenceIdeal.main_arg0) = m' ((c.tc : Thread Cert.ReferenceIdeal.nD Cert.ReferenceIdeal.τ).loc Cert.ReferenceIdeal.main_arg0) := rfl
theorem U0_arg1 : U0 m' c (Proc.devRef .tc Cert.ReferenceIdeal.main_arg1) = m' ((c.tc : Thread Cert.ReferenceIdeal.nD Cert.ReferenceIdeal.τ).loc Cert.ReferenceIdeal.main_arg1) := rfl
theorem U0_arg2 : U0 m' c (Proc.devRef .tc Cert.ReferenceIdeal.main_arg2) = m' ((c.tc : Thread Cert.ReferenceIdeal.nD Cert.ReferenceIdeal.τ).loc Cert.ReferenceIdeal.main_arg2) := rfl
theorem U0_arg3 : U0 m' c (Proc.devRef .tc Cert.ReferenceIdeal.main_arg3) = m' ((c.tc : Thread Cert.ReferenceIdeal.nD Cert.ReferenceIdeal.τ).loc Cert.ReferenceIdeal.main_arg3) := rfl
theorem U0_arg4 : U0 m' c (Proc.devRef .tc Cert.ReferenceIdeal.main_arg4) = m' ((c.tc : Thread Cert.ReferenceIdeal.nD Cert.ReferenceIdeal.τ).loc Cert.ReferenceIdeal.main_arg4) := rfl
theorem U0_arg5 : U0 m' c (Proc.devRef .tc Cert.ReferenceIdeal.main_arg5) = m' ((c.tc : Thread Cert.ReferenceIdeal.nD Cert.ReferenceIdeal.τ).loc Cert.ReferenceIdeal.main_arg5) := rfl
theorem U1a_arg0 : U1a m' c (Proc.devRef .tc Cert.ReferenceIdeal.main_arg0) = m' ((c.tc : Thread Cert.ReferenceIdeal.nD Cert.ReferenceIdeal.τ).loc Cert.ReferenceIdeal.main_arg0) :=
  (after_of_forall_not_mem (b := (Proc.devRef .tc Cert.ReferenceIdeal.main_arg0)) idx1aOps (U0 m' c) (List.forall_iff_forall_mem.mp (by
      simp only [idx1aOps, List.Forall, nullary_writes, unary_writes, binary_writes, ternary_writes, reshape_writes, Finset.mem_singleton]
      repeat' apply And.intro
      all_goals exact devRef_ne_of_ne (by decide)))).trans (U0_arg0 m' c)
theorem U1b_arg0 : U1b m' c (Proc.devRef .tc Cert.ReferenceIdeal.main_arg0) = m' ((c.tc : Thread Cert.ReferenceIdeal.nD Cert.ReferenceIdeal.τ).loc Cert.ReferenceIdeal.main_arg0) :=
  (after_of_forall_not_mem (b := (Proc.devRef .tc Cert.ReferenceIdeal.main_arg0)) idx1bOps (U1a m' c) (List.forall_iff_forall_mem.mp (by
      simp only [idx1bOps, List.Forall, nullary_writes, unary_writes, binary_writes, ternary_writes, reshape_writes, Finset.mem_singleton]
      repeat' apply And.intro
      all_goals exact devRef_ne_of_ne (by decide)))).trans (U1a_arg0 m' c)
theorem U1_arg0 : U1 m' c (Proc.devRef .tc Cert.ReferenceIdeal.main_arg0) = m' ((c.tc : Thread Cert.ReferenceIdeal.nD Cert.ReferenceIdeal.τ).loc Cert.ReferenceIdeal.main_arg0) :=
  (after_of_forall_not_mem (b := (Proc.devRef .tc Cert.ReferenceIdeal.main_arg0)) idx1cOps (U1b m' c) (List.forall_iff_forall_mem.mp (by
      simp only [idx1cOps, List.Forall, nullary_writes, unary_writes, binary_writes, ternary_writes, reshape_writes, Finset.mem_singleton]
      repeat' apply And.intro
      all_goals exact devRef_ne_of_ne (by decide)))).trans (U1b_arg0 m' c)
theorem U1a_arg2 : U1a m' c (Proc.devRef .tc Cert.ReferenceIdeal.main_arg2) = m' ((c.tc : Thread Cert.ReferenceIdeal.nD Cert.ReferenceIdeal.τ).loc Cert.ReferenceIdeal.main_arg2) :=
  (after_of_forall_not_mem (b := (Proc.devRef .tc Cert.ReferenceIdeal.main_arg2)) idx1aOps (U0 m' c) (List.forall_iff_forall_mem.mp (by
      simp only [idx1aOps, List.Forall, nullary_writes, unary_writes, binary_writes, ternary_writes, reshape_writes, Finset.mem_singleton]
      repeat' apply And.intro
      all_goals exact devRef_ne_of_ne (by decide)))).trans (U0_arg2 m' c)
theorem U1b_arg2 : U1b m' c (Proc.devRef .tc Cert.ReferenceIdeal.main_arg2) = m' ((c.tc : Thread Cert.ReferenceIdeal.nD Cert.ReferenceIdeal.τ).loc Cert.ReferenceIdeal.main_arg2) :=
  (after_of_forall_not_mem (b := (Proc.devRef .tc Cert.ReferenceIdeal.main_arg2)) idx1bOps (U1a m' c) (List.forall_iff_forall_mem.mp (by
      simp only [idx1bOps, List.Forall, nullary_writes, unary_writes, binary_writes, ternary_writes, reshape_writes, Finset.mem_singleton]
      repeat' apply And.intro
      all_goals exact devRef_ne_of_ne (by decide)))).trans (U1a_arg2 m' c)
theorem U1_arg2 : U1 m' c (Proc.devRef .tc Cert.ReferenceIdeal.main_arg2) = m' ((c.tc : Thread Cert.ReferenceIdeal.nD Cert.ReferenceIdeal.τ).loc Cert.ReferenceIdeal.main_arg2) :=
  (after_of_forall_not_mem (b := (Proc.devRef .tc Cert.ReferenceIdeal.main_arg2)) idx1cOps (U1b m' c) (List.forall_iff_forall_mem.mp (by
      simp only [idx1cOps, List.Forall, nullary_writes, unary_writes, binary_writes, ternary_writes, reshape_writes, Finset.mem_singleton]
      repeat' apply And.intro
      all_goals exact devRef_ne_of_ne (by decide)))).trans (U1b_arg2 m' c)
theorem U1a_arg3 : U1a m' c (Proc.devRef .tc Cert.ReferenceIdeal.main_arg3) = m' ((c.tc : Thread Cert.ReferenceIdeal.nD Cert.ReferenceIdeal.τ).loc Cert.ReferenceIdeal.main_arg3) :=
  (after_of_forall_not_mem (b := (Proc.devRef .tc Cert.ReferenceIdeal.main_arg3)) idx1aOps (U0 m' c) (List.forall_iff_forall_mem.mp (by
      simp only [idx1aOps, List.Forall, nullary_writes, unary_writes, binary_writes, ternary_writes, reshape_writes, Finset.mem_singleton]
      repeat' apply And.intro
      all_goals exact devRef_ne_of_ne (by decide)))).trans (U0_arg3 m' c)
theorem U1b_arg3 : U1b m' c (Proc.devRef .tc Cert.ReferenceIdeal.main_arg3) = m' ((c.tc : Thread Cert.ReferenceIdeal.nD Cert.ReferenceIdeal.τ).loc Cert.ReferenceIdeal.main_arg3) :=
  (after_of_forall_not_mem (b := (Proc.devRef .tc Cert.ReferenceIdeal.main_arg3)) idx1bOps (U1a m' c) (List.forall_iff_forall_mem.mp (by
      simp only [idx1bOps, List.Forall, nullary_writes, unary_writes, binary_writes, ternary_writes, reshape_writes, Finset.mem_singleton]
      repeat' apply And.intro
      all_goals exact devRef_ne_of_ne (by decide)))).trans (U1a_arg3 m' c)
theorem U1_arg3 : U1 m' c (Proc.devRef .tc Cert.ReferenceIdeal.main_arg3) = m' ((c.tc : Thread Cert.ReferenceIdeal.nD Cert.ReferenceIdeal.τ).loc Cert.ReferenceIdeal.main_arg3) :=
  (after_of_forall_not_mem (b := (Proc.devRef .tc Cert.ReferenceIdeal.main_arg3)) idx1cOps (U1b m' c) (List.forall_iff_forall_mem.mp (by
      simp only [idx1cOps, List.Forall, nullary_writes, unary_writes, binary_writes, ternary_writes, reshape_writes, Finset.mem_singleton]
      repeat' apply And.intro
      all_goals exact devRef_ne_of_ne (by decide)))).trans (U1b_arg3 m' c)
theorem U2_arg3 : U2 m' c (Proc.devRef .tc Cert.ReferenceIdeal.main_arg3) = m' ((c.tc : Thread Cert.ReferenceIdeal.nD Cert.ReferenceIdeal.τ).loc Cert.ReferenceIdeal.main_arg3) :=
  (after_of_forall_not_mem (b := (Proc.devRef .tc Cert.ReferenceIdeal.main_arg3)) dot1Ops (U1 m' c) (List.forall_iff_forall_mem.mp (by
      simp only [dot1Ops, List.Forall, nullary_writes, unary_writes, binary_writes, ternary_writes, reshape_writes, Finset.mem_singleton]
      repeat' apply And.intro
      all_goals exact devRef_ne_of_ne (by decide)))).trans (U1_arg3 m' c)
theorem U3_arg3 : U3 m' c (Proc.devRef .tc Cert.ReferenceIdeal.main_arg3) = m' ((c.tc : Thread Cert.ReferenceIdeal.nD Cert.ReferenceIdeal.τ).loc Cert.ReferenceIdeal.main_arg3) :=
  (after_of_forall_not_mem (b := (Proc.devRef .tc Cert.ReferenceIdeal.main_arg3)) agg1Ops (U2 m' c) (List.forall_iff_forall_mem.mp (by
      simp only [agg1Ops, List.Forall, nullary_writes, unary_writes, binary_writes, ternary_writes, reshape_writes, Finset.mem_singleton]
      repeat' apply And.intro
      all_goals exact devRef_ne_of_ne (by decide)))).trans (U2_arg3 m' c)
theorem U1a_arg1 : U1a m' c (Proc.devRef .tc Cert.ReferenceIdeal.main_arg1) = m' ((c.tc : Thread Cert.ReferenceIdeal.nD Cert.ReferenceIdeal.τ).loc Cert.ReferenceIdeal.main_arg1) :=
  (after_of_forall_not_mem (b := (Proc.devRef .tc Cert.ReferenceIdeal.main_arg1)) idx1aOps (U0 m' c) (List.forall_iff_forall_mem.mp (by
      simp only [idx1aOps, List.Forall, nullary_writes, unary_writes, binary_writes, ternary_writes, reshape_writes, Finset.mem_singleton]
      repeat' apply And.intro
      all_goals exact devRef_ne_of_ne (by decide)))).trans (U0_arg1 m' c)
theorem U1b_arg1 : U1b m' c (Proc.devRef .tc Cert.ReferenceIdeal.main_arg1) = m' ((c.tc : Thread Cert.ReferenceIdeal.nD Cert.ReferenceIdeal.τ).loc Cert.ReferenceIdeal.main_arg1) :=
  (after_of_forall_not_mem (b := (Proc.devRef .tc Cert.ReferenceIdeal.main_arg1)) idx1bOps (U1a m' c) (List.forall_iff_forall_mem.mp (by
      simp only [idx1bOps, List.Forall, nullary_writes, unary_writes, binary_writes, ternary_writes, reshape_writes, Finset.mem_singleton]
      repeat' apply And.intro
      all_goals exact devRef_ne_of_ne (by decide)))).trans (U1a_arg1 m' c)
theorem U1_arg1 : U1 m' c (Proc.devRef .tc Cert.ReferenceIdeal.main_arg1) = m' ((c.tc : Thread Cert.ReferenceIdeal.nD Cert.ReferenceIdeal.τ).loc Cert.ReferenceIdeal.main_arg1) :=
  (after_of_forall_not_mem (b := (Proc.devRef .tc Cert.ReferenceIdeal.main_arg1)) idx1cOps (U1b m' c) (List.forall_iff_forall_mem.mp (by
      simp only [idx1cOps, List.Forall, nullary_writes, unary_writes, binary_writes, ternary_writes, reshape_writes, Finset.mem_singleton]
      repeat' apply And.intro
      all_goals exact devRef_ne_of_ne (by decide)))).trans (U1b_arg1 m' c)
theorem U2_arg1 : U2 m' c (Proc.devRef .tc Cert.ReferenceIdeal.main_arg1) = m' ((c.tc : Thread Cert.ReferenceIdeal.nD Cert.ReferenceIdeal.τ).loc Cert.ReferenceIdeal.main_arg1) :=
  (after_of_forall_not_mem (b := (Proc.devRef .tc Cert.ReferenceIdeal.main_arg1)) dot1Ops (U1 m' c) (List.forall_iff_forall_mem.mp (by
      simp only [dot1Ops, List.Forall, nullary_writes, unary_writes, binary_writes, ternary_writes, reshape_writes, Finset.mem_singleton]
      repeat' apply And.intro
      all_goals exact devRef_ne_of_ne (by decide)))).trans (U1_arg1 m' c)
theorem U3_arg1 : U3 m' c (Proc.devRef .tc Cert.ReferenceIdeal.main_arg1) = m' ((c.tc : Thread Cert.ReferenceIdeal.nD Cert.ReferenceIdeal.τ).loc Cert.ReferenceIdeal.main_arg1) :=
  (after_of_forall_not_mem (b := (Proc.devRef .tc Cert.ReferenceIdeal.main_arg1)) agg1Ops (U2 m' c) (List.forall_iff_forall_mem.mp (by
      simp only [agg1Ops, List.Forall, nullary_writes, unary_writes, binary_writes, ternary_writes, reshape_writes, Finset.mem_singleton]
      repeat' apply And.intro
      all_goals exact devRef_ne_of_ne (by decide)))).trans (U2_arg1 m' c)
theorem U4_arg1 : U4 m' c (Proc.devRef .tc Cert.ReferenceIdeal.main_arg1) = m' ((c.tc : Thread Cert.ReferenceIdeal.nD Cert.ReferenceIdeal.τ).loc Cert.ReferenceIdeal.main_arg1) :=
  (after_of_forall_not_mem (b := (Proc.devRef .tc Cert.ReferenceIdeal.main_arg1)) bias1Ops (U3 m' c) (List.forall_iff_forall_mem.mp (by
      simp only [bias1Ops, List.Forall, nullary_writes, unary_writes, binary_writes, ternary_writes, reshape_writes, Finset.mem_singleton]
      repeat' apply And.intro
      all_goals exact devRef_ne_of_ne (by decide)))).trans (U3_arg1 m' c)
theorem U1a_arg4 : U1a m' c (Proc.devRef .tc Cert.ReferenceIdeal.main_arg4) = m' ((c.tc : Thread Cert.ReferenceIdeal.nD Cert.ReferenceIdeal.τ).loc Cert.ReferenceIdeal.main_arg4) :=
  (after_of_forall_not_mem (b := (Proc.devRef .tc Cert.ReferenceIdeal.main_arg4)) idx1aOps (U0 m' c) (List.forall_iff_forall_mem.mp (by
      simp only [idx1aOps, List.Forall, nullary_writes, unary_writes, binary_writes, ternary_writes, reshape_writes, Finset.mem_singleton]
      repeat' apply And.intro
      all_goals exact devRef_ne_of_ne (by decide)))).trans (U0_arg4 m' c)
theorem U1b_arg4 : U1b m' c (Proc.devRef .tc Cert.ReferenceIdeal.main_arg4) = m' ((c.tc : Thread Cert.ReferenceIdeal.nD Cert.ReferenceIdeal.τ).loc Cert.ReferenceIdeal.main_arg4) :=
  (after_of_forall_not_mem (b := (Proc.devRef .tc Cert.ReferenceIdeal.main_arg4)) idx1bOps (U1a m' c) (List.forall_iff_forall_mem.mp (by
      simp only [idx1bOps, List.Forall, nullary_writes, unary_writes, binary_writes, ternary_writes, reshape_writes, Finset.mem_singleton]
      repeat' apply And.intro
      all_goals exact devRef_ne_of_ne (by decide)))).trans (U1a_arg4 m' c)
theorem U1_arg4 : U1 m' c (Proc.devRef .tc Cert.ReferenceIdeal.main_arg4) = m' ((c.tc : Thread Cert.ReferenceIdeal.nD Cert.ReferenceIdeal.τ).loc Cert.ReferenceIdeal.main_arg4) :=
  (after_of_forall_not_mem (b := (Proc.devRef .tc Cert.ReferenceIdeal.main_arg4)) idx1cOps (U1b m' c) (List.forall_iff_forall_mem.mp (by
      simp only [idx1cOps, List.Forall, nullary_writes, unary_writes, binary_writes, ternary_writes, reshape_writes, Finset.mem_singleton]
      repeat' apply And.intro
      all_goals exact devRef_ne_of_ne (by decide)))).trans (U1b_arg4 m' c)
theorem U2_arg4 : U2 m' c (Proc.devRef .tc Cert.ReferenceIdeal.main_arg4) = m' ((c.tc : Thread Cert.ReferenceIdeal.nD Cert.ReferenceIdeal.τ).loc Cert.ReferenceIdeal.main_arg4) :=
  (after_of_forall_not_mem (b := (Proc.devRef .tc Cert.ReferenceIdeal.main_arg4)) dot1Ops (U1 m' c) (List.forall_iff_forall_mem.mp (by
      simp only [dot1Ops, List.Forall, nullary_writes, unary_writes, binary_writes, ternary_writes, reshape_writes, Finset.mem_singleton]
      repeat' apply And.intro
      all_goals exact devRef_ne_of_ne (by decide)))).trans (U1_arg4 m' c)
theorem U3_arg4 : U3 m' c (Proc.devRef .tc Cert.ReferenceIdeal.main_arg4) = m' ((c.tc : Thread Cert.ReferenceIdeal.nD Cert.ReferenceIdeal.τ).loc Cert.ReferenceIdeal.main_arg4) :=
  (after_of_forall_not_mem (b := (Proc.devRef .tc Cert.ReferenceIdeal.main_arg4)) agg1Ops (U2 m' c) (List.forall_iff_forall_mem.mp (by
      simp only [agg1Ops, List.Forall, nullary_writes, unary_writes, binary_writes, ternary_writes, reshape_writes, Finset.mem_singleton]
      repeat' apply And.intro
      all_goals exact devRef_ne_of_ne (by decide)))).trans (U2_arg4 m' c)
theorem U4_arg4 : U4 m' c (Proc.devRef .tc Cert.ReferenceIdeal.main_arg4) = m' ((c.tc : Thread Cert.ReferenceIdeal.nD Cert.ReferenceIdeal.τ).loc Cert.ReferenceIdeal.main_arg4) :=
  (after_of_forall_not_mem (b := (Proc.devRef .tc Cert.ReferenceIdeal.main_arg4)) bias1Ops (U3 m' c) (List.forall_iff_forall_mem.mp (by
      simp only [bias1Ops, List.Forall, nullary_writes, unary_writes, binary_writes, ternary_writes, reshape_writes, Finset.mem_singleton]
      repeat' apply And.intro
      all_goals exact devRef_ne_of_ne (by decide)))).trans (U3_arg4 m' c)
theorem U5a_arg4 : U5a m' c (Proc.devRef .tc Cert.ReferenceIdeal.main_arg4) = m' ((c.tc : Thread Cert.ReferenceIdeal.nD Cert.ReferenceIdeal.τ).loc Cert.ReferenceIdeal.main_arg4) :=
  (after_of_forall_not_mem (b := (Proc.devRef .tc Cert.ReferenceIdeal.main_arg4)) idx2aOps (U4 m' c) (List.forall_iff_forall_mem.mp (by
      simp only [idx2aOps, List.Forall, nullary_writes, unary_writes, binary_writes, ternary_writes, reshape_writes, Finset.mem_singleton]
      repeat' apply And.intro
      all_goals exact devRef_ne_of_ne (by decide)))).trans (U4_arg4 m' c)
theorem U5b_arg4 : U5b m' c (Proc.devRef .tc Cert.ReferenceIdeal.main_arg4) = m' ((c.tc : Thread Cert.ReferenceIdeal.nD Cert.ReferenceIdeal.τ).loc Cert.ReferenceIdeal.main_arg4) :=
  (after_of_forall_not_mem (b := (Proc.devRef .tc Cert.ReferenceIdeal.main_arg4)) idx2bOps (U5a m' c) (List.forall_iff_forall_mem.mp (by
      simp only [idx2bOps, List.Forall, nullary_writes, unary_writes, binary_writes, ternary_writes, reshape_writes, Finset.mem_singleton]
      repeat' apply And.intro
      all_goals exact devRef_ne_of_ne (by decide)))).trans (U5a_arg4 m' c)
theorem U5_arg4 : U5 m' c (Proc.devRef .tc Cert.ReferenceIdeal.main_arg4) = m' ((c.tc : Thread Cert.ReferenceIdeal.nD Cert.ReferenceIdeal.τ).loc Cert.ReferenceIdeal.main_arg4) :=
  (after_of_forall_not_mem (b := (Proc.devRef .tc Cert.ReferenceIdeal.main_arg4)) idx2cOps (U5b m' c) (List.forall_iff_forall_mem.mp (by
      simp only [idx2cOps, List.Forall, nullary_writes, unary_writes, binary_writes, ternary_writes, reshape_writes, Finset.mem_singleton]
      repeat' apply And.intro
      all_goals exact devRef_ne_of_ne (by decide)))).trans (U5b_arg4 m' c)
theorem U1a_arg5 : U1a m' c (Proc.devRef .tc Cert.ReferenceIdeal.main_arg5) = m' ((c.tc : Thread Cert.ReferenceIdeal.nD Cert.ReferenceIdeal.τ).loc Cert.ReferenceIdeal.main_arg5) :=
  (after_of_forall_not_mem (b := (Proc.devRef .tc Cert.ReferenceIdeal.main_arg5)) idx1aOps (U0 m' c) (List.forall_iff_forall_mem.mp (by
      simp only [idx1aOps, List.Forall, nullary_writes, unary_writes, binary_writes, ternary_writes, reshape_writes, Finset.mem_singleton]
      repeat' apply And.intro
      all_goals exact devRef_ne_of_ne (by decide)))).trans (U0_arg5 m' c)
theorem U1b_arg5 : U1b m' c (Proc.devRef .tc Cert.ReferenceIdeal.main_arg5) = m' ((c.tc : Thread Cert.ReferenceIdeal.nD Cert.ReferenceIdeal.τ).loc Cert.ReferenceIdeal.main_arg5) :=
  (after_of_forall_not_mem (b := (Proc.devRef .tc Cert.ReferenceIdeal.main_arg5)) idx1bOps (U1a m' c) (List.forall_iff_forall_mem.mp (by
      simp only [idx1bOps, List.Forall, nullary_writes, unary_writes, binary_writes, ternary_writes, reshape_writes, Finset.mem_singleton]
      repeat' apply And.intro
      all_goals exact devRef_ne_of_ne (by decide)))).trans (U1a_arg5 m' c)
theorem U1_arg5 : U1 m' c (Proc.devRef .tc Cert.ReferenceIdeal.main_arg5) = m' ((c.tc : Thread Cert.ReferenceIdeal.nD Cert.ReferenceIdeal.τ).loc Cert.ReferenceIdeal.main_arg5) :=
  (after_of_forall_not_mem (b := (Proc.devRef .tc Cert.ReferenceIdeal.main_arg5)) idx1cOps (U1b m' c) (List.forall_iff_forall_mem.mp (by
      simp only [idx1cOps, List.Forall, nullary_writes, unary_writes, binary_writes, ternary_writes, reshape_writes, Finset.mem_singleton]
      repeat' apply And.intro
      all_goals exact devRef_ne_of_ne (by decide)))).trans (U1b_arg5 m' c)
theorem U2_arg5 : U2 m' c (Proc.devRef .tc Cert.ReferenceIdeal.main_arg5) = m' ((c.tc : Thread Cert.ReferenceIdeal.nD Cert.ReferenceIdeal.τ).loc Cert.ReferenceIdeal.main_arg5) :=
  (after_of_forall_not_mem (b := (Proc.devRef .tc Cert.ReferenceIdeal.main_arg5)) dot1Ops (U1 m' c) (List.forall_iff_forall_mem.mp (by
      simp only [dot1Ops, List.Forall, nullary_writes, unary_writes, binary_writes, ternary_writes, reshape_writes, Finset.mem_singleton]
      repeat' apply And.intro
      all_goals exact devRef_ne_of_ne (by decide)))).trans (U1_arg5 m' c)
theorem U3_arg5 : U3 m' c (Proc.devRef .tc Cert.ReferenceIdeal.main_arg5) = m' ((c.tc : Thread Cert.ReferenceIdeal.nD Cert.ReferenceIdeal.τ).loc Cert.ReferenceIdeal.main_arg5) :=
  (after_of_forall_not_mem (b := (Proc.devRef .tc Cert.ReferenceIdeal.main_arg5)) agg1Ops (U2 m' c) (List.forall_iff_forall_mem.mp (by
      simp only [agg1Ops, List.Forall, nullary_writes, unary_writes, binary_writes, ternary_writes, reshape_writes, Finset.mem_singleton]
      repeat' apply And.intro
      all_goals exact devRef_ne_of_ne (by decide)))).trans (U2_arg5 m' c)
theorem U4_arg5 : U4 m' c (Proc.devRef .tc Cert.ReferenceIdeal.main_arg5) = m' ((c.tc : Thread Cert.ReferenceIdeal.nD Cert.ReferenceIdeal.τ).loc Cert.ReferenceIdeal.main_arg5) :=
  (after_of_forall_not_mem (b := (Proc.devRef .tc Cert.ReferenceIdeal.main_arg5)) bias1Ops (U3 m' c) (List.forall_iff_forall_mem.mp (by
      simp only [bias1Ops, List.Forall, nullary_writes, unary_writes, binary_writes, ternary_writes, reshape_writes, Finset.mem_singleton]
      repeat' apply And.intro
      all_goals exact devRef_ne_of_ne (by decide)))).trans (U3_arg5 m' c)
theorem U5a_arg5 : U5a m' c (Proc.devRef .tc Cert.ReferenceIdeal.main_arg5) = m' ((c.tc : Thread Cert.ReferenceIdeal.nD Cert.ReferenceIdeal.τ).loc Cert.ReferenceIdeal.main_arg5) :=
  (after_of_forall_not_mem (b := (Proc.devRef .tc Cert.ReferenceIdeal.main_arg5)) idx2aOps (U4 m' c) (List.forall_iff_forall_mem.mp (by
      simp only [idx2aOps, List.Forall, nullary_writes, unary_writes, binary_writes, ternary_writes, reshape_writes, Finset.mem_singleton]
      repeat' apply And.intro
      all_goals exact devRef_ne_of_ne (by decide)))).trans (U4_arg5 m' c)
theorem U5b_arg5 : U5b m' c (Proc.devRef .tc Cert.ReferenceIdeal.main_arg5) = m' ((c.tc : Thread Cert.ReferenceIdeal.nD Cert.ReferenceIdeal.τ).loc Cert.ReferenceIdeal.main_arg5) :=
  (after_of_forall_not_mem (b := (Proc.devRef .tc Cert.ReferenceIdeal.main_arg5)) idx2bOps (U5a m' c) (List.forall_iff_forall_mem.mp (by
      simp only [idx2bOps, List.Forall, nullary_writes, unary_writes, binary_writes, ternary_writes, reshape_writes, Finset.mem_singleton]
      repeat' apply And.intro
      all_goals exact devRef_ne_of_ne (by decide)))).trans (U5a_arg5 m' c)
theorem U5_arg5 : U5 m' c (Proc.devRef .tc Cert.ReferenceIdeal.main_arg5) = m' ((c.tc : Thread Cert.ReferenceIdeal.nD Cert.ReferenceIdeal.τ).loc Cert.ReferenceIdeal.main_arg5) :=
  (after_of_forall_not_mem (b := (Proc.devRef .tc Cert.ReferenceIdeal.main_arg5)) idx2cOps (U5b m' c) (List.forall_iff_forall_mem.mp (by
      simp only [idx2cOps, List.Forall, nullary_writes, unary_writes, binary_writes, ternary_writes, reshape_writes, Finset.mem_singleton]
      repeat' apply And.intro
      all_goals exact devRef_ne_of_ne (by decide)))).trans (U5b_arg5 m' c)
theorem U6_arg5 : U6 m' c (Proc.devRef .tc Cert.ReferenceIdeal.main_arg5) = m' ((c.tc : Thread Cert.ReferenceIdeal.nD Cert.ReferenceIdeal.τ).loc Cert.ReferenceIdeal.main_arg5) :=
  (after_of_forall_not_mem (b := (Proc.devRef .tc Cert.ReferenceIdeal.main_arg5)) dot2Ops (U5 m' c) (List.forall_iff_forall_mem.mp (by
      simp only [dot2Ops, List.Forall, nullary_writes, unary_writes, binary_writes, ternary_writes, reshape_writes, Finset.mem_singleton]
      repeat' apply And.intro
      all_goals exact devRef_ne_of_ne (by decide)))).trans (U5_arg5 m' c)
theorem U7_arg5 : U7 m' c (Proc.devRef .tc Cert.ReferenceIdeal.main_arg5) = m' ((c.tc : Thread Cert.ReferenceIdeal.nD Cert.ReferenceIdeal.τ).loc Cert.ReferenceIdeal.main_arg5) :=
  (after_of_forall_not_mem (b := (Proc.devRef .tc Cert.ReferenceIdeal.main_arg5)) agg2Ops (U6 m' c) (List.forall_iff_forall_mem.mp (by
      simp only [agg2Ops, List.Forall, nullary_writes, unary_writes, binary_writes, ternary_writes, reshape_writes, Finset.mem_singleton]
      repeat' apply And.intro
      all_goals exact devRef_ne_of_ne (by decide)))).trans (U6_arg5 m' c)

/-- The reference leaves every argument array as launched. -/
theorem ref_arg0 : StableHlo.after ops (launchContents m' c) (Proc.devRef .tc Cert.ReferenceIdeal.main_arg0) = m' ((c.tc : Thread Cert.ReferenceIdeal.nD Cert.ReferenceIdeal.τ).loc Cert.ReferenceIdeal.main_arg0) :=
  after_of_forall_not_mem (b := (Proc.devRef .tc Cert.ReferenceIdeal.main_arg0)) ops (launchContents m' c) (List.forall_iff_forall_mem.mp (by
      simp only [ops, List.Forall, nullary_writes, unary_writes, binary_writes, ternary_writes, reshape_writes, Finset.mem_singleton]
      repeat' apply And.intro
      all_goals exact devRef_ne_of_ne (by decide)))
theorem ref_arg1 : StableHlo.after ops (launchContents m' c) (Proc.devRef .tc Cert.ReferenceIdeal.main_arg1) = m' ((c.tc : Thread Cert.ReferenceIdeal.nD Cert.ReferenceIdeal.τ).loc Cert.ReferenceIdeal.main_arg1) :=
  after_of_forall_not_mem (b := (Proc.devRef .tc Cert.ReferenceIdeal.main_arg1)) ops (launchContents m' c) (List.forall_iff_forall_mem.mp (by
      simp only [ops, List.Forall, nullary_writes, unary_writes, binary_writes, ternary_writes, reshape_writes, Finset.mem_singleton]
      repeat' apply And.intro
      all_goals exact devRef_ne_of_ne (by decide)))
theorem ref_arg2 : StableHlo.after ops (launchContents m' c) (Proc.devRef .tc Cert.ReferenceIdeal.main_arg2) = m' ((c.tc : Thread Cert.ReferenceIdeal.nD Cert.ReferenceIdeal.τ).loc Cert.ReferenceIdeal.main_arg2) :=
  after_of_forall_not_mem (b := (Proc.devRef .tc Cert.ReferenceIdeal.main_arg2)) ops (launchContents m' c) (List.forall_iff_forall_mem.mp (by
      simp only [ops, List.Forall, nullary_writes, unary_writes, binary_writes, ternary_writes, reshape_writes, Finset.mem_singleton]
      repeat' apply And.intro
      all_goals exact devRef_ne_of_ne (by decide)))
theorem ref_arg3 : StableHlo.after ops (launchContents m' c) (Proc.devRef .tc Cert.ReferenceIdeal.main_arg3) = m' ((c.tc : Thread Cert.ReferenceIdeal.nD Cert.ReferenceIdeal.τ).loc Cert.ReferenceIdeal.main_arg3) :=
  after_of_forall_not_mem (b := (Proc.devRef .tc Cert.ReferenceIdeal.main_arg3)) ops (launchContents m' c) (List.forall_iff_forall_mem.mp (by
      simp only [ops, List.Forall, nullary_writes, unary_writes, binary_writes, ternary_writes, reshape_writes, Finset.mem_singleton]
      repeat' apply And.intro
      all_goals exact devRef_ne_of_ne (by decide)))
theorem ref_arg4 : StableHlo.after ops (launchContents m' c) (Proc.devRef .tc Cert.ReferenceIdeal.main_arg4) = m' ((c.tc : Thread Cert.ReferenceIdeal.nD Cert.ReferenceIdeal.τ).loc Cert.ReferenceIdeal.main_arg4) :=
  after_of_forall_not_mem (b := (Proc.devRef .tc Cert.ReferenceIdeal.main_arg4)) ops (launchContents m' c) (List.forall_iff_forall_mem.mp (by
      simp only [ops, List.Forall, nullary_writes, unary_writes, binary_writes, ternary_writes, reshape_writes, Finset.mem_singleton]
      repeat' apply And.intro
      all_goals exact devRef_ne_of_ne (by decide)))
theorem ref_arg5 : StableHlo.after ops (launchContents m' c) (Proc.devRef .tc Cert.ReferenceIdeal.main_arg5) = m' ((c.tc : Thread Cert.ReferenceIdeal.nD Cert.ReferenceIdeal.τ).loc Cert.ReferenceIdeal.main_arg5) :=
  after_of_forall_not_mem (b := (Proc.devRef .tc Cert.ReferenceIdeal.main_arg5)) ops (launchContents m' c) (List.forall_iff_forall_mem.mp (by
      simp only [ops, List.Forall, nullary_writes, unary_writes, binary_writes, ternary_writes, reshape_writes, Finset.mem_singleton]
      repeat' apply And.intro
      all_goals exact devRef_ne_of_ne (by decide)))

/-! ## The kernel's side -/

theorem W0_arg0 : W0 m ρ c (Proc.devRef .tc Cert.KernelIdeal.main_arg0) = m ((c.tc : Thread Cert.KernelIdeal.nD Cert.KernelIdeal.τ).loc Cert.KernelIdeal.main_arg0) := rfl
theorem W0_arg1 : W0 m ρ c (Proc.devRef .tc Cert.KernelIdeal.main_arg1) = m ((c.tc : Thread Cert.KernelIdeal.nD Cert.KernelIdeal.τ).loc Cert.KernelIdeal.main_arg1) := rfl
theorem W0_arg2 : W0 m ρ c (Proc.devRef .tc Cert.KernelIdeal.main_arg2) = m ((c.tc : Thread Cert.KernelIdeal.nD Cert.KernelIdeal.τ).loc Cert.KernelIdeal.main_arg2) := rfl
theorem W0_arg3 : W0 m ρ c (Proc.devRef .tc Cert.KernelIdeal.main_arg3) = m ((c.tc : Thread Cert.KernelIdeal.nD Cert.KernelIdeal.τ).loc Cert.KernelIdeal.main_arg3) := rfl
theorem W0_arg4 : W0 m ρ c (Proc.devRef .tc Cert.KernelIdeal.main_arg4) = m ((c.tc : Thread Cert.KernelIdeal.nD Cert.KernelIdeal.τ).loc Cert.KernelIdeal.main_arg4) := rfl
theorem W0_arg5 : W0 m ρ c (Proc.devRef .tc Cert.KernelIdeal.main_arg5) = m ((c.tc : Thread Cert.KernelIdeal.nD Cert.KernelIdeal.τ).loc Cert.KernelIdeal.main_arg5) := rfl
theorem W3_arg0 : W3 m ρ c (Proc.devRef .tc Cert.KernelIdeal.main_arg0) = m ((c.tc : Thread Cert.KernelIdeal.nD Cert.KernelIdeal.τ).loc Cert.KernelIdeal.main_arg0) :=
  (after_of_forall_not_mem (b := (Proc.devRef .tc Cert.KernelIdeal.main_arg0)) hostOps0_2 (W2 m ρ c) (List.forall_iff_forall_mem.mp (by
      simp only [hostOps0_2, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg0)) hostOps0_1 (W1 m ρ c) (List.forall_iff_forall_mem.mp (by
      simp only [hostOps0_1, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg0)) hostOps0 (W0 m ρ c) (List.forall_iff_forall_mem.mp (by
      simp only [hostOps0, List.Forall, nullary_writes, unary_writes, binary_writes, ternary_writes, reshape_writes, Finset.mem_singleton]
      repeat' apply And.intro
      all_goals exact devRef_ne_of_ne (by decide)))).trans ((W0_arg0 m ρ c))))
theorem W3_arg2 : W3 m ρ c (Proc.devRef .tc Cert.KernelIdeal.main_arg2) = m ((c.tc : Thread Cert.KernelIdeal.nD Cert.KernelIdeal.τ).loc Cert.KernelIdeal.main_arg2) :=
  (after_of_forall_not_mem (b := (Proc.devRef .tc Cert.KernelIdeal.main_arg2)) hostOps0_2 (W2 m ρ c) (List.forall_iff_forall_mem.mp (by
      simp only [hostOps0_2, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg2)) hostOps0_1 (W1 m ρ c) (List.forall_iff_forall_mem.mp (by
      simp only [hostOps0_1, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg2)) hostOps0 (W0 m ρ c) (List.forall_iff_forall_mem.mp (by
      simp only [hostOps0, List.Forall, nullary_writes, unary_writes, binary_writes, ternary_writes, reshape_writes, Finset.mem_singleton]
      repeat' apply And.intro
      all_goals exact devRef_ne_of_ne (by decide)))).trans ((W0_arg2 m ρ c))))
theorem W3_arg3 : W3 m ρ c (Proc.devRef .tc Cert.KernelIdeal.main_arg3) = m ((c.tc : Thread Cert.KernelIdeal.nD Cert.KernelIdeal.τ).loc Cert.KernelIdeal.main_arg3) :=
  (after_of_forall_not_mem (b := (Proc.devRef .tc Cert.KernelIdeal.main_arg3)) hostOps0_2 (W2 m ρ c) (List.forall_iff_forall_mem.mp (by
      simp only [hostOps0_2, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg3)) hostOps0_1 (W1 m ρ c) (List.forall_iff_forall_mem.mp (by
      simp only [hostOps0_1, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg3)) hostOps0 (W0 m ρ c) (List.forall_iff_forall_mem.mp (by
      simp only [hostOps0, List.Forall, nullary_writes, unary_writes, binary_writes, ternary_writes, reshape_writes, Finset.mem_singleton]
      repeat' apply And.intro
      all_goals exact devRef_ne_of_ne (by decide)))).trans ((W0_arg3 m ρ c))))
theorem W3_arg1 : W3 m ρ c (Proc.devRef .tc Cert.KernelIdeal.main_arg1) = m ((c.tc : Thread Cert.KernelIdeal.nD Cert.KernelIdeal.τ).loc Cert.KernelIdeal.main_arg1) :=
  (after_of_forall_not_mem (b := (Proc.devRef .tc Cert.KernelIdeal.main_arg1)) hostOps0_2 (W2 m ρ c) (List.forall_iff_forall_mem.mp (by
      simp only [hostOps0_2, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg1)) hostOps0_1 (W1 m ρ c) (List.forall_iff_forall_mem.mp (by
      simp only [hostOps0_1, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg1)) hostOps0 (W0 m ρ c) (List.forall_iff_forall_mem.mp (by
      simp only [hostOps0, List.Forall, nullary_writes, unary_writes, binary_writes, ternary_writes, reshape_writes, Finset.mem_singleton]
      repeat' apply And.intro
      all_goals exact devRef_ne_of_ne (by decide)))).trans ((W0_arg1 m ρ c))))
theorem W3_arg4 : W3 m ρ c (Proc.devRef .tc Cert.KernelIdeal.main_arg4) = m ((c.tc : Thread Cert.KernelIdeal.nD Cert.KernelIdeal.τ).loc Cert.KernelIdeal.main_arg4) :=
  (after_of_forall_not_mem (b := (Proc.devRef .tc Cert.KernelIdeal.main_arg4)) hostOps0_2 (W2 m ρ c) (List.forall_iff_forall_mem.mp (by
      simp only [hostOps0_2, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg4)) hostOps0_1 (W1 m ρ c) (List.forall_iff_forall_mem.mp (by
      simp only [hostOps0_1, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg4)) hostOps0 (W0 m ρ c) (List.forall_iff_forall_mem.mp (by
      simp only [hostOps0, List.Forall, nullary_writes, unary_writes, binary_writes, ternary_writes, reshape_writes, Finset.mem_singleton]
      repeat' apply And.intro
      all_goals exact devRef_ne_of_ne (by decide)))).trans ((W0_arg4 m ρ c))))
theorem W3_arg5 : W3 m ρ c (Proc.devRef .tc Cert.KernelIdeal.main_arg5) = m ((c.tc : Thread Cert.KernelIdeal.nD Cert.KernelIdeal.τ).loc Cert.KernelIdeal.main_arg5) :=
  (after_of_forall_not_mem (b := (Proc.devRef .tc Cert.KernelIdeal.main_arg5)) hostOps0_2 (W2 m ρ c) (List.forall_iff_forall_mem.mp (by
      simp only [hostOps0_2, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg5)) hostOps0_1 (W1 m ρ c) (List.forall_iff_forall_mem.mp (by
      simp only [hostOps0_1, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg5)) hostOps0 (W0 m ρ c) (List.forall_iff_forall_mem.mp (by
      simp only [hostOps0, List.Forall, nullary_writes, unary_writes, binary_writes, ternary_writes, reshape_writes, Finset.mem_singleton]
      repeat' apply And.intro
      all_goals exact devRef_ne_of_ne (by decide)))).trans ((W0_arg5 m ρ c))))
theorem W4_arg3 : W4 m ρ c (Proc.devRef .tc Cert.KernelIdeal.main_arg3) = m ((c.tc : Thread Cert.KernelIdeal.nD Cert.KernelIdeal.τ).loc Cert.KernelIdeal.main_arg3) :=
  (W4_of_ne m ρ c Cert.KernelIdeal.main_arg3 (by decide)).trans (W3_arg3 m ρ c)
theorem W4_arg1 : W4 m ρ c (Proc.devRef .tc Cert.KernelIdeal.main_arg1) = m ((c.tc : Thread Cert.KernelIdeal.nD Cert.KernelIdeal.τ).loc Cert.KernelIdeal.main_arg1) :=
  (W4_of_ne m ρ c Cert.KernelIdeal.main_arg1 (by decide)).trans (W3_arg1 m ρ c)
theorem W4_arg4 : W4 m ρ c (Proc.devRef .tc Cert.KernelIdeal.main_arg4) = m ((c.tc : Thread Cert.KernelIdeal.nD Cert.KernelIdeal.τ).loc Cert.KernelIdeal.main_arg4) :=
  (W4_of_ne m ρ c Cert.KernelIdeal.main_arg4 (by decide)).trans (W3_arg4 m ρ c)
theorem W4_arg5 : W4 m ρ c (Proc.devRef .tc Cert.KernelIdeal.main_arg5) = m ((c.tc : Thread Cert.KernelIdeal.nD Cert.KernelIdeal.τ).loc Cert.KernelIdeal.main_arg5) :=
  (W4_of_ne m ρ c Cert.KernelIdeal.main_arg5 (by decide)).trans (W3_arg5 m ρ c)
theorem W5_arg1 : W5 m ρ c (Proc.devRef .tc Cert.KernelIdeal.main_arg1) = m ((c.tc : Thread Cert.KernelIdeal.nD Cert.KernelIdeal.τ).loc Cert.KernelIdeal.main_arg1) :=
  (after_of_forall_not_mem (b := (Proc.devRef .tc Cert.KernelIdeal.main_arg1)) hostOps1 (W4 m ρ c) (List.forall_iff_forall_mem.mp (by
      simp only [hostOps1, List.Forall, nullary_writes, unary_writes, binary_writes, ternary_writes, reshape_writes, Finset.mem_singleton]
      repeat' apply And.intro
      all_goals exact devRef_ne_of_ne (by decide)))).trans ((W4_arg1 m ρ c))
theorem W5_arg4 : W5 m ρ c (Proc.devRef .tc Cert.KernelIdeal.main_arg4) = m ((c.tc : Thread Cert.KernelIdeal.nD Cert.KernelIdeal.τ).loc Cert.KernelIdeal.main_arg4) :=
  (after_of_forall_not_mem (b := (Proc.devRef .tc Cert.KernelIdeal.main_arg4)) hostOps1 (W4 m ρ c) (List.forall_iff_forall_mem.mp (by
      simp only [hostOps1, List.Forall, nullary_writes, unary_writes, binary_writes, ternary_writes, reshape_writes, Finset.mem_singleton]
      repeat' apply And.intro
      all_goals exact devRef_ne_of_ne (by decide)))).trans ((W4_arg4 m ρ c))
theorem W5_arg5 : W5 m ρ c (Proc.devRef .tc Cert.KernelIdeal.main_arg5) = m ((c.tc : Thread Cert.KernelIdeal.nD Cert.KernelIdeal.τ).loc Cert.KernelIdeal.main_arg5) :=
  (after_of_forall_not_mem (b := (Proc.devRef .tc Cert.KernelIdeal.main_arg5)) hostOps1 (W4 m ρ c) (List.forall_iff_forall_mem.mp (by
      simp only [hostOps1, List.Forall, nullary_writes, unary_writes, binary_writes, ternary_writes, reshape_writes, Finset.mem_singleton]
      repeat' apply And.intro
      all_goals exact devRef_ne_of_ne (by decide)))).trans ((W4_arg5 m ρ c))
theorem W6_arg1 : W6 m ρ c (Proc.devRef .tc Cert.KernelIdeal.main_arg1) = m ((c.tc : Thread Cert.KernelIdeal.nD Cert.KernelIdeal.τ).loc Cert.KernelIdeal.main_arg1) :=
  (W6_of_ne m ρ c Cert.KernelIdeal.main_arg1 (by decide)).trans (W5_arg1 m ρ c)
theorem W6_arg4 : W6 m ρ c (Proc.devRef .tc Cert.KernelIdeal.main_arg4) = m ((c.tc : Thread Cert.KernelIdeal.nD Cert.KernelIdeal.τ).loc Cert.KernelIdeal.main_arg4) :=
  (W6_of_ne m ρ c Cert.KernelIdeal.main_arg4 (by decide)).trans (W5_arg4 m ρ c)
theorem W6_arg5 : W6 m ρ c (Proc.devRef .tc Cert.KernelIdeal.main_arg5) = m ((c.tc : Thread Cert.KernelIdeal.nD Cert.KernelIdeal.τ).loc Cert.KernelIdeal.main_arg5) :=
  (W6_of_ne m ρ c Cert.KernelIdeal.main_arg5 (by decide)).trans (W5_arg5 m ρ c)
theorem W9_arg4 : W9 m ρ c (Proc.devRef .tc Cert.KernelIdeal.main_arg4) = m ((c.tc : Thread Cert.KernelIdeal.nD Cert.KernelIdeal.τ).loc Cert.KernelIdeal.main_arg4) :=
  (after_of_forall_not_mem (b := (Proc.devRef .tc Cert.KernelIdeal.main_arg4)) hostOps2_2 (W8 m ρ c) (List.forall_iff_forall_mem.mp (by
      simp only [hostOps2_2, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg4)) hostOps2_1 (W7 m ρ c) (List.forall_iff_forall_mem.mp (by
      simp only [hostOps2_1, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg4)) hostOps2 (W6 m ρ c) (List.forall_iff_forall_mem.mp (by
      simp only [hostOps2, List.Forall, nullary_writes, unary_writes, binary_writes, ternary_writes, reshape_writes, Finset.mem_singleton]
      repeat' apply And.intro
      all_goals exact devRef_ne_of_ne (by decide)))).trans ((W6_arg4 m ρ c))))
theorem W9_arg5 : W9 m ρ c (Proc.devRef .tc Cert.KernelIdeal.main_arg5) = m ((c.tc : Thread Cert.KernelIdeal.nD Cert.KernelIdeal.τ).loc Cert.KernelIdeal.main_arg5) :=
  (after_of_forall_not_mem (b := (Proc.devRef .tc Cert.KernelIdeal.main_arg5)) hostOps2_2 (W8 m ρ c) (List.forall_iff_forall_mem.mp (by
      simp only [hostOps2_2, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg5)) hostOps2_1 (W7 m ρ c) (List.forall_iff_forall_mem.mp (by
      simp only [hostOps2_1, List.Forall, nullary_writes, unary_writes, binary_writes, ternary_writes, reshape_writes, Finset.mem_singleton]
      repeat' apply And.intro
      all_goals exact devRef_ne_of_ne (by decide)))).trans (
    (after_of_forall_not_mem (b := (Proc.devRef .tc Cert.KernelIdeal.main_arg5)) hostOps2 (W6 m ρ c) (List.forall_iff_forall_mem.mp (by
      simp only [hostOps2, List.Forall, nullary_writes, unary_writes, binary_writes, ternary_writes, reshape_writes, Finset.mem_singleton]
      repeat' apply And.intro
      all_goals exact devRef_ne_of_ne (by decide)))).trans ((W6_arg5 m ρ c))))
theorem W10_arg5 : W10 m ρ c (Proc.devRef .tc Cert.KernelIdeal.main_arg5) = m ((c.tc : Thread Cert.KernelIdeal.nD Cert.KernelIdeal.τ).loc Cert.KernelIdeal.main_arg5) :=
  (W10_of_ne m ρ c Cert.KernelIdeal.main_arg5 (by decide)).trans (W9_arg5 m ρ c)

end Cert.Bridge

end
-- ==== Proof.BridgeIdx1.lean ====
/-
  Layer 1, the index side, in both programs.

  Source and target lists with the self loops appended, the in-degree of every node, its inverse square root where
  positive, and the weight of every edge: both programs compute these by the same host operations from the same edge
  array, so stage by stage the buffers agree.
-/
import proofs.«174836_j77653008712280_1_alg».proof.Proof.BridgeArgs
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal.Gen Cert.ReferenceIdeal.HostRun

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ### The index side, first stage: lists, degrees, comparison and inverse square root — the same host operations on the same edge array -/

set_option maxHeartbeats 4000000 in
theorem idx1a_row (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U1a m' c (Proc.devRef .tc Cert.ReferenceIdeal.main_v5) = W1 m ρ c (Proc.devRef .tc Cert.KernelIdeal.main_v5) := by
  unfold U1a
  show StableHlo.after idx1aOps (U0 m' c) (Proc.devRef .tc Cert.ReferenceIdeal.main_v5) = StableHlo.after hostOps0 (W0 m ρ c) (Proc.devRef .tc Cert.KernelIdeal.main_v5)
  generalize hW : W0 m ρ c = VK
  host_line
  subst hW
  rw [U0_arg1 m' c, W0_arg1 m ρ c, h1]
  first | done | rfl
set_option maxHeartbeats 4000000 in
theorem idx1a_col (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U1a m' c (Proc.devRef .tc Cert.ReferenceIdeal.main_v6) = W1 m ρ c (Proc.devRef .tc Cert.KernelIdeal.main_v6) := by
  unfold U1a
  show StableHlo.after idx1aOps (U0 m' c) (Proc.devRef .tc Cert.ReferenceIdeal.main_v6) = StableHlo.after hostOps0 (W0 m ρ c) (Proc.devRef .tc Cert.KernelIdeal.main_v6)
  generalize hW : W0 m ρ c = VK
  host_line
  subst hW
  rw [U0_arg1 m' c, W0_arg1 m ρ c, h1]
  first | done | rfl
set_option maxHeartbeats 4000000 in
theorem idx1a_cmp (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U1a m' c (Proc.devRef .tc Cert.ReferenceIdeal.main_v12) = W1 m ρ c (Proc.devRef .tc Cert.KernelIdeal.main_v12) := by
  unfold U1a
  show StableHlo.after idx1aOps (U0 m' c) (Proc.devRef .tc Cert.ReferenceIdeal.main_v12) = StableHlo.after hostOps0 (W0 m ρ c) (Proc.devRef .tc Cert.KernelIdeal.main_v12)
  generalize hW : W0 m ρ c = VK
  host_line
  subst hW
  rw [U0_arg1 m' c, W0_arg1 m ρ c, h1]
  first | done | rfl
set_option maxHeartbeats 4000000 in
theorem idx1a_rsq (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U1a m' c (Proc.devRef .tc Cert.ReferenceIdeal.main_v13) = W1 m ρ c (Proc.devRef .tc Cert.KernelIdeal.main_v13) := by
  unfold U1a
  show StableHlo.after idx1aOps (U0 m' c) (Proc.devRef .tc Cert.ReferenceIdeal.main_v13) = StableHlo.after hostOps0 (W0 m ρ c) (Proc.devRef .tc Cert.KernelIdeal.main_v13)
  generalize hW : W0 m ρ c = VK
  host_line
  subst hW
  rw [U0_arg1 m' c, W0_arg1 m ρ c, h1]
  first | done | rfl
/-- The zero the select falls back to: a scalar on the reference's side, already spread over the nodes on the kernel's. -/
theorem idx1a_zeroR : U1a m' c (Proc.devRef .tc Cert.ReferenceIdeal.main_cst_2) = constant (F := Ideal) Cert.ReferenceIdeal.S_ .f32 0x00000000#32 := by
  unfold U1a
  host_line
  all_goals rfl
theorem idx1a_zeroK : W1 m ρ c (Proc.devRef .tc Cert.KernelIdeal.main_v14) = broadcastInDim Cert.KernelIdeal.S100000 ![] Cert.KernelIdeal.Facts₀.bcast_S_S100000 (constant (F := Ideal) Cert.KernelIdeal.S_ .f32 0x00000000#32) := by
  show StableHlo.after hostOps0 (W0 m ρ c) (Proc.devRef .tc Cert.KernelIdeal.main_v14) = _
  generalize W0 m ρ c = VK
  host_line
  all_goals rfl

/-! ### Second stage: the factor of every node — inverse square root of the degree where positive, zero elsewhere -/

set_option maxHeartbeats 4000000 in
theorem idx1b_dis (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U1b m' c (Proc.devRef .tc Cert.ReferenceIdeal.main_v14) = W2 m ρ c (Proc.devRef .tc Cert.KernelIdeal.main_v15) := by
  unfold U1b
  show StableHlo.after idx1bOps (U1a m' c) (Proc.devRef .tc Cert.ReferenceIdeal.main_v14) = StableHlo.after hostOps0_1 (W1 m ρ c) (Proc.devRef .tc Cert.KernelIdeal.main_v15)
  generalize hW : W1 m ρ c = VK
  host_line
  subst hW
  rw [idx1a_cmp m ρ m' c h1, idx1a_rsq m ρ m' c h1, idx1a_zeroR m' c, idx1a_zeroK m ρ c]
  first | done | rfl
set_option maxHeartbeats 4000000 in
theorem idx1b_row (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U1b m' c (Proc.devRef .tc Cert.ReferenceIdeal.main_v5) = W2 m ρ c (Proc.devRef .tc Cert.KernelIdeal.main_v5) := by
  unfold U1b
  show StableHlo.after idx1bOps (U1a m' c) (Proc.devRef .tc Cert.ReferenceIdeal.main_v5) = StableHlo.after hostOps0_1 (W1 m ρ c) (Proc.devRef .tc Cert.KernelIdeal.main_v5)
  generalize hW : W1 m ρ c = VK
  host_line
  subst hW
  rw [idx1a_row m ρ m' c h1]
  first | done | rfl
set_option maxHeartbeats 4000000 in
theorem idx1b_col (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U1b m' c (Proc.devRef .tc Cert.ReferenceIdeal.main_v6) = W2 m ρ c (Proc.devRef .tc Cert.KernelIdeal.main_v6) := by
  unfold U1b
  show StableHlo.after idx1bOps (U1a m' c) (Proc.devRef .tc Cert.ReferenceIdeal.main_v6) = StableHlo.after hostOps0_1 (W1 m ρ c) (Proc.devRef .tc Cert.KernelIdeal.main_v6)
  generalize hW : W1 m ρ c = VK
  host_line
  subst hW
  rw [idx1a_col m ρ m' c h1]
  first | done | rfl

/-! ### Third stage: the weight of every edge — the product of its end points' factors -/

set_option maxHeartbeats 4000000 in
/-- Layer 1, the index side: the edge weights. -/
theorem idx1_nrm (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U1 m' c (Proc.devRef .tc Cert.ReferenceIdeal.main_v29) = W3 m ρ c (Proc.devRef .tc Cert.KernelIdeal.main_v30) := by
  unfold U1
  show StableHlo.after idx1cOps (U1b m' c) (Proc.devRef .tc Cert.ReferenceIdeal.main_v29) = StableHlo.after hostOps0_2 (W2 m ρ c) (Proc.devRef .tc Cert.KernelIdeal.main_v30)
  generalize hW : W2 m ρ c = VK
  host_line
  subst hW
  rw [idx1b_dis m ρ m' c h1, idx1b_row m ρ m' c h1, idx1b_col m ρ m' c h1]
  first | done | rfl
set_option maxHeartbeats 4000000 in
/-- Layer 1, the index side: the source list. -/
theorem idx1_row (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U1 m' c (Proc.devRef .tc Cert.ReferenceIdeal.main_v5) = W3 m ρ c (Proc.devRef .tc Cert.KernelIdeal.main_v5) := by
  unfold U1
  show StableHlo.after idx1cOps (U1b m' c) (Proc.devRef .tc Cert.ReferenceIdeal.main_v5) = StableHlo.after hostOps0_2 (W2 m ρ c) (Proc.devRef .tc Cert.KernelIdeal.main_v5)
  generalize hW : W2 m ρ c = VK
  host_line
  subst hW
  rw [idx1b_row m ρ m' c h1]
  first | done | rfl
set_option maxHeartbeats 4000000 in
/-- Layer 1, the index side: the target list. -/
theorem idx1_col (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U1 m' c (Proc.devRef .tc Cert.ReferenceIdeal.main_v6) = W3 m ρ c (Proc.devRef .tc Cert.KernelIdeal.main_v6) := by
  unfold U1
  show StableHlo.after idx1cOps (U1b m' c) (Proc.devRef .tc Cert.ReferenceIdeal.main_v6) = StableHlo.after hostOps0_2 (W2 m ρ c) (Proc.devRef .tc Cert.KernelIdeal.main_v6)
  generalize hW : W2 m ρ c = VK
  host_line
  subst hW
  rw [idx1b_col m ρ m' c h1]
  first | done | rfl

end Cert.Bridge

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.RegionDot.lean ====
/-
  The two matrix-product regions of the kernel, as whole-array functions.

  Each region tiles the rows of its left operand in ten blocks of 10000, keeps the right operand whole, and at every grid
  point stores the block's product with the right operand into the matching row block of the result. On extended reals a
  tile's product entry is the plain sum over the contracted axis, a row of the result depends only on the same row of the
  left operand, and the ten blocks tile the result: so the result array is the whole product, whatever contents the region
  is entered with.
-/
import proofs.«174836_j77653008712280_1_alg».proof.Proof.Gen.KernelIdeal.Frame
import proofs.«174836_j77653008712280_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## Region 0: a row-tiled product of a [100000, 64] matrix with a [64, 128] matrix -/

/-- The whole product, entry by entry: entry (r, q) is the sum over k of left (r, k) times right (k, q). -/
def prodA (x : S100000x64.Idx → EReal) (w : S64x128.Idx → EReal) : S100000x128.Idx → EReal :=
  fun i => ∑ k : Fin 64, x (ix2 (⟨(i 0).val, (i 0).isLt⟩ : Fin 100000) k) * w (ix2 k (⟨(i 1).val, (i 1).isLt⟩ : Fin 128))

/-- One tile's product at entry (p, q): the narrowing of the operands to the matrix unit's input format is the identity
    on extended reals, the accumulator starts at zero, and what is left is the sum over the contracted axis. -/
theorem payA_apply (x0 : Vec Ideal S10000x64 .f32) (x1 : Vec Ideal S64x128 .f32) (p : Fin 10000) (q : Fin 128) :
    k0_pay1 x0 x1 (ix2 p q) = ∑ k : Fin 64, x0 (ix2 p k) * x1 (ix2 k q) := by
  unfold k0_pay1
  exact Cert.LibDot.matmul_zero_apply dot_S10000x64_S64x128_S10000x128_1_0_0_1_n_n rfl rfl
    (fun j q => by
      unfold DotDims.lhsIdx
      rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
      rfl)
    (fun j q => dot_S10000x64_S64x128_S10000x128_1_0_0_1_n_n.lhsIdx_val_of_single rfl j q)
    (fun j q => dot_S10000x64_S64x128_S10000x128_1_0_0_1_n_n.rhsIdx_val_of_single rfl j q)
    (fun j q => by
      unfold DotDims.rhsIdx
      rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
      rfl)
    none _ _ p q

/-- The index maps over the grid: the left operand's and the result's row block is the grid point, every column block
    is 0, and the right operand is the one whole block. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block of the result is some grid point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What grid point `t` writes back is block `t` of the whole product of the two arrays the region finds. -/
theorem flushed0 (c : Dev nD) (x : S100000x64.Idx → EReal) (w : S64x128.Idx → EReal)
    (hx : V c main_arg0 = x) (hw : V c main_arg2 = w) (t : Fin cfg0.N) :
    (dat0 V c).flushed 2 t = ((cfg0.win 2).blk t).view.read (Elt Ideal) (prodA x w) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x128) hz]
  obtain ⟨e0, e1, e2, e3, e4, e5⟩ := idx_facts0 t
  funext j
  obtain ⟨p, q, rfl⟩ : ∃ (p : Fin 10000) (q : Fin 128), j = ix2 p q := ⟨j 0, j 1, eq_ix2 j⟩
  refine (payA_apply (iblk0 V c 0 t) (iblk0 V c 1 t) p q).trans ?_
  show _ = prodA x w (((cfg0.win 2).blk t).view.emb (ix2 p q))
  unfold prodA
  refine Finset.sum_congr rfl fun k _ => ?_
  have hl : iblk0 V c 0 t (ix2 p k) = x (ix2 (⟨((((cfg0.win 2).blk t).view.emb (ix2 p q)) 0).val, ((((cfg0.win 2).blk t).view.emb (ix2 p q)) 0).isLt⟩ : Fin 100000) k) := by
    show V c main_arg0 (((cfg0.win 0).blk t).view.emb (ix2 p k)) = _
    rw [hx]
    refine congrArg x (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have hr : iblk0 V c 1 t (ix2 k q) = w (ix2 k (⟨((((cfg0.win 2).blk t).view.emb (ix2 p q)) 1).val, ((((cfg0.win 2).blk t).view.emb (ix2 p q)) 1).isLt⟩ : Fin 128)) := by
    show V c main_arg2 (((cfg0.win 1).blk t).view.emb (ix2 k q)) = _
    rw [hw]
    refine congrArg w (funext fun a => Fin.ext ?_)
    match a with
    | ⟨0, _⟩ => show win0_1.index t (0 : Fin 2) * 64 + 1 * k.val = k.val; omega
    | ⟨1, _⟩ => show win0_1.index t (1 : Fin 2) * 128 + 1 * q.val = win0_2.index t (1 : Fin 2) * 128 + 1 * q.val; omega
  rw [hl, hr]

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- The ten row blocks tile the result: row r lies in block r / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region its output array is the whole product of the two arrays it was entered with. -/
theorem value0 (c : Dev nD) (x : S100000x64.Idx → EReal) (w : S64x128.Idx → EReal)
    (hx : V c main_arg0 = x) (hw : V c main_arg2 = w) :
    (dat0 V c).arrAt 2 cfg0.N = prodA x w :=
  (dat0 V c).arrAt_eq_of_cover 2 (prodA x w) (fun t _ => flushed0 V c x w hx hw t) cover0

/-! ## Region 2: a row-tiled product of a [100000, 128] matrix with a [128, 64] matrix -/

/-- The whole product, entry by entry: entry (r, q) is the sum over k of left (r, k) times right (k, q). -/
def prodB (x : S100000x128.Idx → EReal) (w : S128x64.Idx → EReal) : S100000x64.Idx → EReal :=
  fun i => ∑ k : Fin 128, x (ix2 (⟨(i 0).val, (i 0).isLt⟩ : Fin 100000) k) * w (ix2 k (⟨(i 1).val, (i 1).isLt⟩ : Fin 64))

/-- One tile's product at entry (p, q): the cast of the left block to its own shape and the narrowing of the operands to
    the matrix unit's input format are the identity on extended reals, the accumulator starts at zero, and what is left
    is the sum over the contracted axis. -/
theorem payB_apply (x0 : Vec Ideal S10000x128 .f32) (x1 : Vec Ideal S128x64 .f32) (p : Fin 10000) (q : Fin 64) :
    k2_pay1 x0 x1 (ix2 p q) = ∑ k : Fin 128, x0 (ix2 p k) * x1 (ix2 k q) := by
  unfold k2_pay1
  refine (Cert.LibDot.matmul_zero_apply dot_S10000x128_S128x64_S10000x64_1_0_0_1_n_n rfl rfl
    (fun j q => by
      unfold DotDims.lhsIdx
      rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
      rfl)
    (fun j q => dot_S10000x128_S128x64_S10000x64_1_0_0_1_n_n.lhsIdx_val_of_single rfl j q)
    (fun j q => dot_S10000x128_S128x64_S10000x64_1_0_0_1_n_n.rhsIdx_val_of_single rfl j q)
    (fun j q => by
      unfold DotDims.rhsIdx
      rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
      rfl)
    none _ _ p q).trans ?_
  rw [shapeCast_self]
  rfl

/-- The index maps over the grid: the left operand's and the result's row block is the grid point, every column block
    is 0, and the right operand is the one whole block. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block of the result is some grid point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

/-- What grid point `t` writes back is block `t` of the whole product of the two arrays the region finds. -/
theorem flushed2 (c : Dev nD) (x : S100000x128.Idx → EReal) (w : S128x64.Idx → EReal)
    (hx : V c main_v46 = x) (hw : V c main_arg4 = w) (t : Fin cfg2.N) :
    (dat2 V c).flushed 2 t = ((cfg2.win 2).blk t).view.read (Elt Ideal) (prodB x w) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  obtain ⟨e0, e1, e2, e3, e4, e5⟩ := idx_facts2 t
  funext j
  obtain ⟨p, q, rfl⟩ : ∃ (p : Fin 10000) (q : Fin 64), j = ix2 p q := ⟨j 0, j 1, eq_ix2 j⟩
  refine (payB_apply (iblk2 V c 0 t) (iblk2 V c 1 t) p q).trans ?_
  show _ = prodB x w (((cfg2.win 2).blk t).view.emb (ix2 p q))
  unfold prodB
  refine Finset.sum_congr rfl fun k _ => ?_
  have hl : iblk2 V c 0 t (ix2 p k) = x (ix2 (⟨((((cfg2.win 2).blk t).view.emb (ix2 p q)) 0).val, ((((cfg2.win 2).blk t).view.emb (ix2 p q)) 0).isLt⟩ : Fin 100000) k) := by
    show V c main_v46 (((cfg2.win 0).blk t).view.emb (ix2 p k)) = _
    rw [hx]
    refine congrArg x (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  have hr : iblk2 V c 1 t (ix2 k q) = w (ix2 k (⟨((((cfg2.win 2).blk t).view.emb (ix2 p q)) 1).val, ((((cfg2.win 2).blk t).view.emb (ix2 p q)) 1).isLt⟩ : Fin 64)) := by
    show V c main_arg4 (((cfg2.win 1).blk t).view.emb (ix2 k q)) = _
    rw [hw]
    refine congrArg w (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [hl, hr]

/-- An index of the result array is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v78).slice (win2_2.rect t)).set ↔ _
  rw [View.set_slice_whole, Rect.mem_set_unit]
  exact Iff.rfl

/-- The ten row blocks tile the result: row r lies in block r / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region its output array is the whole product of the two arrays it was entered with. -/
theorem value2 (c : Dev nD) (x : S100000x128.Idx → EReal) (w : S128x64.Idx → EReal)
    (hx : V c main_v46 = x) (hw : V c main_arg4 = w) :
    (dat2 V c).arrAt 2 cfg2.N = prodB x w :=
  (dat2 V c).arrAt_eq_of_cover 2 (prodB x w) (fun t _ => flushed2 V c x w hx hw t) cover2

end Cert.KernelIdeal.Regions

end
-- ==== Proof.RegionBias.lean ====
/-
  The two bias regions of the kernel, as whole-array functions.

  Each region tiles the rows of a [100000, c] matrix in ten blocks of 10000, keeps the one-row bias block whole, and at every
  grid point stores the block with the bias row added to each of its rows (after the first layer: the maximum of that
  and zero) into the matching row block of the result. An entry of the result depends only on the same entry of the
  matrix and on the bias entry of its column, and the ten blocks tile the result: so the result array is the whole
  matrix with the bias row added (and rectified), whatever contents the region is entered with.
-/
import proofs.«174836_j77653008712280_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RowBias

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 1: the bias row added to every row of a [100000, 128] matrix, then the rectifier -/

/-- The whole result, entry by entry: entry (r, q) is the matrix entry plus the row's entry q, or zero if that is larger. -/
def biasRelu (a : S100000x128.Idx → EReal) (b : S1x128.Idx → EReal) : S100000x128.Idx → EReal :=
  fun i => max (a i + b (ix2 (0 : Fin 1) (⟨(i 1).val, (i 1).isLt⟩ : Fin 128))) (Ideal.ofBits .f32 0x00000000#32)

/-- One tile's result at entry (p, q): the casts of the two blocks to their own shapes are the identity, and the one-row
    block laid under every row reads its entry q. -/
theorem payRelu_apply (x0 : Vec Ideal S10000x128 .f32) (x1 : Vec Ideal S1x128 .f32) (p : Fin 10000) (q : Fin 128) :
    k1_pay1 x0 x1 (ix2 p q) = max (x0 (ix2 p q) + x1 (ix2 (0 : Fin 1) q)) (Ideal.ofBits .f32 0x00000000#32) := by
  unfold k1_pay1
  have hb : broadcastTo S10000x128 (shapeCast S1x128 x1 shapeCasts_S1x128_S1x128) broadcasts_S1x128_S10000x128 (ix2 p q) = x1 (ix2 (0 : Fin 1) q) := by
    rw [shapeCast_self]
    exact broadcastTo_apply x1 broadcasts_S1x128_S10000x128 (ix2 p q) (ix2 (0 : Fin 1) q) (fun a => by
      match a with
      | ⟨0, _⟩ => rfl
      | ⟨1, _⟩ => show q.val = if (128 : Nat) = 1 then 0 else q.val; rw [if_neg (by decide)])
  show max (shapeCast S10000x128 x0 shapeCasts_S10000x128_S10000x128 (ix2 p q) + broadcastTo S10000x128 (shapeCast S1x128 x1 shapeCasts_S1x128_S1x128) broadcasts_S1x128_S10000x128 (ix2 p q)) _ = _
  rw [hb, shapeCast_self]
  rfl

/-- The index maps over the grid: the matrix's and the result's row block is the grid point, every column block is 0,
    and the bias row is the one whole block. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block of the result is some grid point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- What grid point `t` writes back is block `t` of the whole result of the two arrays the region finds. -/
theorem flushed1 (c : Dev nD) (a : S100000x128.Idx → EReal) (b : S1x128.Idx → EReal)
    (ha : V c main_v44 = a) (hb : V c main_v45 = b) (t : Fin cfg1.N) :
    (dat1 V c).flushed 2 t = ((cfg1.win 2).blk t).view.read (Elt Ideal) (biasRelu a b) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨e0, e1, e2, e3, e4, e5⟩ := idx_facts1 t
  funext j
  obtain ⟨p, q, rfl⟩ : ∃ (p : Fin 10000) (q : Fin 128), j = ix2 p q := ⟨j 0, j 1, eq_ix2 j⟩
  refine (payRelu_apply (iblk1 V c 0 t) (iblk1 V c 1 t) p q).trans ?_
  show _ = biasRelu a b (((cfg1.win 2).blk t).view.emb (ix2 p q))
  unfold biasRelu
  have hl : iblk1 V c 0 t (ix2 p q) = a (((cfg1.win 2).blk t).view.emb (ix2 p q)) := by
    show V c main_v44 (((cfg1.win 0).blk t).view.emb (ix2 p q)) = _
    rw [ha]
    refine congrArg a (funext fun ax => Fin.ext ?_)
    match ax with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have hr : iblk1 V c 1 t (ix2 (0 : Fin 1) q) = b (ix2 (0 : Fin 1) (⟨((((cfg1.win 2).blk t).view.emb (ix2 p q)) 1).val, ((((cfg1.win 2).blk t).view.emb (ix2 p q)) 1).isLt⟩ : Fin 128)) := by
    show V c main_v45 (((cfg1.win 1).blk t).view.emb (ix2 (0 : Fin 1) q)) = _
    rw [hb]
    refine congrArg b (funext fun ax => Fin.ext ?_)
    match ax with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hl, hr]

/-- An index of the result array is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v46).slice (win1_2.rect t)).set ↔ _
  rw [View.set_slice_whole, Rect.mem_set_unit]
  exact Iff.rfl

/-- The ten row blocks tile the result: row r lies in block r / 10000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region its output array is the whole result of the two arrays it was entered with. -/
theorem value1 (c : Dev nD) (a : S100000x128.Idx → EReal) (b : S1x128.Idx → EReal)
    (ha : V c main_v44 = a) (hb : V c main_v45 = b) :
    (dat1 V c).arrAt 2 cfg1.N = biasRelu a b :=
  (dat1 V c).arrAt_eq_of_cover 2 (biasRelu a b) (fun t _ => flushed1 V c a b ha hb t) cover1

/-! ## Region 3: the bias row added to every row of a [100000, 64] matrix -/

/-- The whole result, entry by entry: entry (r, q) is the matrix entry plus the row's entry q. -/
def biasAdd (a : S100000x64.Idx → EReal) (b : S1x64.Idx → EReal) : S100000x64.Idx → EReal :=
  fun i => a i + b (ix2 (0 : Fin 1) (⟨(i 1).val, (i 1).isLt⟩ : Fin 64))

/-- One tile's result at entry (p, q): the casts of the two blocks to their own shapes are the identity, and the one-row
    block laid under every row reads its entry q. -/
theorem payAdd_apply (x0 : Vec Ideal S10000x64 .f32) (x1 : Vec Ideal S1x64 .f32) (p : Fin 10000) (q : Fin 64) :
    k3_pay1 x0 x1 (ix2 p q) = x0 (ix2 p q) + x1 (ix2 (0 : Fin 1) q) := by
  unfold k3_pay1
  have hb : broadcastTo S10000x64 (shapeCast S1x64 x1 shapeCasts_S1x64_S1x64) broadcasts_S1x64_S10000x64 (ix2 p q) = x1 (ix2 (0 : Fin 1) q) := by
    rw [shapeCast_self]
    exact broadcastTo_apply x1 broadcasts_S1x64_S10000x64 (ix2 p q) (ix2 (0 : Fin 1) q) (fun a => by
      match a with
      | ⟨0, _⟩ => rfl
      | ⟨1, _⟩ => show q.val = if (64 : Nat) = 1 then 0 else q.val; rw [if_neg (by decide)])
  show shapeCast S10000x64 x0 shapeCasts_S10000x64_S10000x64 (ix2 p q) + broadcastTo S10000x64 (shapeCast S1x64 x1 shapeCasts_S1x64_S1x64) broadcasts_S1x64_S10000x64 (ix2 p q) = _
  rw [hb, shapeCast_self]

/-- The index maps over the grid: the matrix's and the result's row block is the grid point, every column block is 0,
    and the bias row is the one whole block. -/
theorem idx_facts3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block of the result is some grid point's. -/
theorem idx_onto3 : ∀ q0 : Fin 10, ∃ t : Fin cfg3.N, win3_2.index t = ![q0.val, 0] :=
  (by decide +kernel : ∀ q0 : Fin 10, ∃ t : Fin grid3.N, win3_2.index t = ![q0.val, 0])

/-- What grid point `t` writes back is block `t` of the whole result of the two arrays the region finds. -/
theorem flushed3 (c : Dev nD) (a : S100000x64.Idx → EReal) (b : S1x64.Idx → EReal)
    (ha : V c main_v91 = a) (hb : V c main_v92 = b) (t : Fin cfg3.N) :
    (dat3 V c).flushed 2 t = ((cfg3.win 2).blk t).view.read (Elt Ideal) (biasAdd a b) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5⟩ := idx_facts3 t
  funext j
  obtain ⟨p, q, rfl⟩ : ∃ (p : Fin 10000) (q : Fin 64), j = ix2 p q := ⟨j 0, j 1, eq_ix2 j⟩
  refine (payAdd_apply (iblk3 V c 0 t) (iblk3 V c 1 t) p q).trans ?_
  show _ = biasAdd a b (((cfg3.win 2).blk t).view.emb (ix2 p q))
  unfold biasAdd
  have hl : iblk3 V c 0 t (ix2 p q) = a (((cfg3.win 2).blk t).view.emb (ix2 p q)) := by
    show V c main_v91 (((cfg3.win 0).blk t).view.emb (ix2 p q)) = _
    rw [ha]
    refine congrArg a (funext fun ax => Fin.ext ?_)
    match ax with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have hr : iblk3 V c 1 t (ix2 (0 : Fin 1) q) = b (ix2 (0 : Fin 1) (⟨((((cfg3.win 2).blk t).view.emb (ix2 p q)) 1).val, ((((cfg3.win 2).blk t).view.emb (ix2 p q)) 1).isLt⟩ : Fin 64)) := by
    show V c main_v92 (((cfg3.win 1).blk t).view.emb (ix2 (0 : Fin 1) q)) = _
    rw [hb]
    refine congrArg b (funext fun ax => Fin.ext ?_)
    match ax with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [hl, hr]

/-- An index of the result array is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v93).slice (win3_2.rect t)).set ↔ _
  rw [View.set_slice_whole, Rect.mem_set_unit]
  exact Iff.rfl

/-- The ten row blocks tile the result: row r lies in block r / 10000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region its output array is the whole result of the two arrays it was entered with. -/
theorem value3 (c : Dev nD) (a : S100000x64.Idx → EReal) (b : S1x64.Idx → EReal)
    (ha : V c main_v91 = a) (hb : V c main_v92 = b) :
    (dat3 V c).arrAt 2 cfg3.N = biasAdd a b :=
  (dat3 V c).arrAt_eq_of_cover 2 (biasAdd a b) (fun t _ => flushed3 V c a b ha hb t) cover3

end Cert.KernelIdeal.RowBias

end
-- ==== Proof.RefLaws.lean ====
/-
  The reference's dense steps as the whole-array functions the kernel's regions leave.

  Everything else the two programs do — the edge lists with self loops, the degrees, the normalisation weights, the gather,
  the scaling and the scatter-add — is the same sequence of host operations on both sides. They differ in four places:
  the two dense products, which the reference takes with the host's dot_general and the kernel in row tiles on the
  matrix unit, and the two bias additions (the first followed by the rectifier), which the reference writes with
  broadcasts and the kernel again in row tiles. On extended reals each pair is one function of its inputs.
-/
import proofs.«174836_j77653008712280_1_alg».proof.ReferenceIdeal
import proofs.«174836_j77653008712280_1_alg».proof.Proof.Gen.ReferenceIdeal
import proofs.«174836_j77653008712280_1_alg».proof.Proof.RegionDot
import proofs.«174836_j77653008712280_1_alg».proof.Proof.RegionBias
import proofs.«174836_j77653008712280_1_alg».proof.Proof.LibDot
import Idealize.ShloMosaic.Lib.Pipeline.Value
import Idealize.ShloMosaic.Lib.ValueIdx
import Idealize.ShloMosaic.PureOps.Ideal.Laws

noncomputable section

namespace Cert.ReferenceIdeal.Laws

open Cert.ReferenceIdeal Cert.ReferenceIdeal.Facts₀ Idealize.ShloMosaic Idealize.ShloMosaic.ValueIdx
open scoped BigOperators

/-- The host's product of a [100000, 64] matrix with a [64, 128] matrix is, entry by entry, the sum over the contracted
    axis: the same whole-array function the kernel's row-tiled region leaves. -/
theorem dot1_eq (x : FVec Ideal S100000x64 .f32) (w : FVec Ideal S64x128 .f32) :
    Host.dotGeneral (F := Ideal) dot_S100000x64_S64x128_S100000x128_1_0_0_1_n_n none x w = Cert.KernelIdeal.Regions.prodA x w := by
  funext i
  obtain ⟨p, q, rfl⟩ : ∃ (p : Fin 100000) (q : Fin 128), i = ix2 p q := ⟨i 0, i 1, eq_ix2 i⟩
  simp only [Host.dotGeneral]
  exact Cert.LibDot.dotGeneral_apply dot_S100000x64_S64x128_S100000x128_1_0_0_1_n_n rfl rfl
    (fun j q => by
      unfold DotDims.lhsIdx
      rw [dif_neg (show ¬(0 : Fin S100000x64.rank) ∈ dot_S100000x64_S64x128_S100000x128_1_0_0_1_n_n.lhsBatch by decide), dif_pos (show (0 : Fin S100000x64.rank) ∈ dot_S100000x64_S64x128_S100000x128_1_0_0_1_n_n.lhsNonContracting by decide)]
      rfl)
    (fun j q => dot_S100000x64_S64x128_S100000x128_1_0_0_1_n_n.lhsIdx_val_of_single rfl j q)
    (fun j q => dot_S100000x64_S64x128_S100000x128_1_0_0_1_n_n.rhsIdx_val_of_single rfl j q)
    (fun j q => by
      unfold DotDims.rhsIdx
      rw [dif_neg (show ¬(1 : Fin S64x128.rank) ∈ dot_S100000x64_S64x128_S100000x128_1_0_0_1_n_n.rhsBatch by decide), dif_pos (show (1 : Fin S64x128.rank) ∈ dot_S100000x64_S64x128_S100000x128_1_0_0_1_n_n.rhsNonContracting by decide)]
      rfl)
    none _ x w p q

/-- The host's product of a [100000, 128] matrix with a [128, 64] matrix is, entry by entry, the sum over the contracted
    axis: the same whole-array function the kernel's row-tiled region leaves. -/
theorem dot2_eq (x : FVec Ideal S100000x128 .f32) (w : FVec Ideal S128x64 .f32) :
    Host.dotGeneral (F := Ideal) dot_S100000x128_S128x64_S100000x64_1_0_0_1_n_n none x w = Cert.KernelIdeal.Regions.prodB x w := by
  funext i
  obtain ⟨p, q, rfl⟩ : ∃ (p : Fin 100000) (q : Fin 64), i = ix2 p q := ⟨i 0, i 1, eq_ix2 i⟩
  simp only [Host.dotGeneral]
  exact Cert.LibDot.dotGeneral_apply dot_S100000x128_S128x64_S100000x64_1_0_0_1_n_n rfl rfl
    (fun j q => by
      unfold DotDims.lhsIdx
      rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
      rfl)
    (fun j q => dot_S100000x128_S128x64_S100000x64_1_0_0_1_n_n.lhsIdx_val_of_single rfl j q)
    (fun j q => dot_S100000x128_S128x64_S100000x64_1_0_0_1_n_n.rhsIdx_val_of_single rfl j q)
    (fun j q => by
      unfold DotDims.rhsIdx
      rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
      rfl)
    none _ x w p q

/-- The host lays the bias vector under every row by two broadcasts ([128] to [1, 128] to [100000, 128]) and adds, then takes the
    maximum with a zero array; the kernel is handed the vector reshaped to one row. Entry (r, q) of either is the matrix entry plus the
    vector's entry q, or zero if that is larger. -/
theorem bias1_eq (a : FVec Ideal S100000x128 .f32) (b : FVec Ideal S128 .f32) :
    maximumf (addf a (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
      = Cert.KernelIdeal.RowBias.biasRelu a (shapeCast Cert.KernelIdeal.S1x128 b Cert.KernelIdeal.Facts₀.shapeCasts_S128_S1x128) := by
  funext i
  obtain ⟨p, q, rfl⟩ : ∃ (p : Fin 100000) (q : Fin 128), i = ix2 p q := ⟨i 0, i 1, eq_ix2 i⟩
  have e1 : broadcastInDim S100000x128 ![0, 1] bcast_S1x128_S100000x128_0_1 (broadcastInDim S1x128 ![1] bcast_S128_S1x128_1 b) (ix2 p q) = b (ix1 q) :=
    (broadcastInDim_apply _ bcast_S1x128_S100000x128_0_1 (broadcastInDim S1x128 ![1] bcast_S128_S1x128_1 b) (ix2 p q) (ix2 (0 : Fin 1) q) (fun ax => by
      match ax with
      | ⟨0, _⟩ => show 0 = if (1 : Nat) = 1 then 0 else p.val; rw [if_pos rfl]
      | ⟨1, _⟩ => show q.val = if (128 : Nat) = 1 then 0 else q.val; rw [if_neg (by decide)])).trans
    (broadcastInDim_apply _ bcast_S128_S1x128_1 b (ix2 (0 : Fin 1) q) (ix1 q) (fun ax => by
      match ax with
      | ⟨0, _⟩ => show q.val = if (128 : Nat) = 1 then 0 else q.val; rw [if_neg (by decide)]))
  have e2 : shapeCast Cert.KernelIdeal.S1x128 b Cert.KernelIdeal.Facts₀.shapeCasts_S128_S1x128 (ix2 (0 : Fin 1) q) = b (ix1 q) :=
    shapeCast_apply b Cert.KernelIdeal.Facts₀.shapeCasts_S128_S1x128 (ix2 (0 : Fin 1) q) (ix1 q) (by
      rw [Shape.rowMajor_val_two, Shape.rowMajor_val_one]
      show q.val = 0 * 128 + q.val
      omega)
  show max (a (ix2 p q) + broadcastInDim S100000x128 ![0, 1] bcast_S1x128_S100000x128_0_1 (broadcastInDim S1x128 ![1] bcast_S128_S1x128_1 b) (ix2 p q)) (Ideal.ofBits .f32 0x00000000#32)
    = max (a (ix2 p q) + shapeCast Cert.KernelIdeal.S1x128 b Cert.KernelIdeal.Facts₀.shapeCasts_S128_S1x128 (ix2 (0 : Fin 1) q)) (Ideal.ofBits .f32 0x00000000#32)
  rw [e1, e2]

/-- The host lays the bias vector under every row by two broadcasts ([64] to [1, 64] to [100000, 64]) and adds; the kernel is handed the vector reshaped to one row. Entry (r, q) of either is the matrix entry plus the
    vector's entry q. -/
theorem bias2_eq (a : FVec Ideal S100000x64 .f32) (b : FVec Ideal S64 .f32) :
    addf a (broadcastInDim S100000x64 ![0, 1] bcast_S1x64_S100000x64_0_1 (broadcastInDim S1x64 ![1] bcast_S64_S1x64_1 b))
      = Cert.KernelIdeal.RowBias.biasAdd a (shapeCast Cert.KernelIdeal.S1x64 b Cert.KernelIdeal.Facts₀.shapeCasts_S64_S1x64) := by
  funext i
  obtain ⟨p, q, rfl⟩ : ∃ (p : Fin 100000) (q : Fin 64), i = ix2 p q := ⟨i 0, i 1, eq_ix2 i⟩
  have e1 : broadcastInDim S100000x64 ![0, 1] bcast_S1x64_S100000x64_0_1 (broadcastInDim S1x64 ![1] bcast_S64_S1x64_1 b) (ix2 p q) = b (ix1 q) :=
    (broadcastInDim_apply _ bcast_S1x64_S100000x64_0_1 (broadcastInDim S1x64 ![1] bcast_S64_S1x64_1 b) (ix2 p q) (ix2 (0 : Fin 1) q) (fun ax => by
      match ax with
      | ⟨0, _⟩ => show 0 = if (1 : Nat) = 1 then 0 else p.val; rw [if_pos rfl]
      | ⟨1, _⟩ => show q.val = if (64 : Nat) = 1 then 0 else q.val; rw [if_neg (by decide)])).trans
    (broadcastInDim_apply _ bcast_S64_S1x64_1 b (ix2 (0 : Fin 1) q) (ix1 q) (fun ax => by
      match ax with
      | ⟨0, _⟩ => show q.val = if (64 : Nat) = 1 then 0 else q.val; rw [if_neg (by decide)]))
  have e2 : shapeCast Cert.KernelIdeal.S1x64 b Cert.KernelIdeal.Facts₀.shapeCasts_S64_S1x64 (ix2 (0 : Fin 1) q) = b (ix1 q) :=
    shapeCast_apply b Cert.KernelIdeal.Facts₀.shapeCasts_S64_S1x64 (ix2 (0 : Fin 1) q) (ix1 q) (by
      rw [Shape.rowMajor_val_two, Shape.rowMajor_val_one]
      show q.val = 0 * 64 + q.val
      omega)
  show a (ix2 p q) + broadcastInDim S100000x64 ![0, 1] bcast_S1x64_S100000x64_0_1 (broadcastInDim S1x64 ![1] bcast_S64_S1x64_1 b) (ix2 p q)
    = a (ix2 p q) + shapeCast Cert.KernelIdeal.S1x64 b Cert.KernelIdeal.Facts₀.shapeCasts_S64_S1x64 (ix2 (0 : Fin 1) q)
  rw [e1, e2]

end Cert.ReferenceIdeal.Laws

end
-- ==== Proof.BridgeL1.lean ====
/-
  Layer 1 after the index side: the dense product, the aggregation, the bias with the rectifier.

  The product and the bias are a host operation (or a few) in the reference and a row-tiled region in the kernel: one
  function of their inputs. The aggregation between them is the same host operations on both sides.
-/
import proofs.«174836_j77653008712280_1_alg».proof.Proof.BridgeIdx1
import proofs.«174836_j77653008712280_1_alg».proof.Proof.RegionDot
import proofs.«174836_j77653008712280_1_alg».proof.Proof.RegionBias
import proofs.«174836_j77653008712280_1_alg».proof.Proof.RefLaws
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal.Gen Cert.ReferenceIdeal.HostRun

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- Layer 1, the dense product: the host's dot_general and the kernel's row-tiled region are one function of the features
    and the first weight matrix. -/
theorem dot1_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) : U2 m' c (Proc.devRef .tc Cert.ReferenceIdeal.main_v30) = W4 m ρ c (Proc.devRef .tc Cert.KernelIdeal.main_v31) := by
  have hK : W4 m ρ c (Proc.devRef .tc Cert.KernelIdeal.main_v31) = Cert.KernelIdeal.Regions.prodA (m ((c.tc : Thread Cert.KernelIdeal.nD Cert.KernelIdeal.τ).loc Cert.KernelIdeal.main_arg0)) (m ((c.tc : Thread Cert.KernelIdeal.nD Cert.KernelIdeal.τ).loc Cert.KernelIdeal.main_arg2)) :=
    (W4_arr m ρ c 2).trans (Cert.KernelIdeal.Regions.value0 (V3 m ρ) c _ _ (W3_arg0 m ρ c) (W3_arg2 m ρ c))
  unfold U2
  host_line
  rw [U1_arg0 m' c, U1_arg2 m' c, Cert.ReferenceIdeal.Laws.dot1_eq, hK, h0, h2]

/-- Entering the aggregation, the index side's three arrays are still what the index side left. -/
theorem agg1_row (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U2 m' c (Proc.devRef .tc Cert.ReferenceIdeal.main_v5) = W4 m ρ c (Proc.devRef .tc Cert.KernelIdeal.main_v5) := by
  have hR : U2 m' c (Proc.devRef .tc Cert.ReferenceIdeal.main_v5) = U1 m' c (Proc.devRef .tc Cert.ReferenceIdeal.main_v5) := by unfold U2; host_line; all_goals rfl
  exact hR.trans ((idx1_row m ρ m' c h1).trans (W4_of_ne m ρ c Cert.KernelIdeal.main_v5 (by decide)).symm)
theorem agg1_col (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U2 m' c (Proc.devRef .tc Cert.ReferenceIdeal.main_v6) = W4 m ρ c (Proc.devRef .tc Cert.KernelIdeal.main_v6) := by
  have hR : U2 m' c (Proc.devRef .tc Cert.ReferenceIdeal.main_v6) = U1 m' c (Proc.devRef .tc Cert.ReferenceIdeal.main_v6) := by unfold U2; host_line; all_goals rfl
  exact hR.trans ((idx1_col m ρ m' c h1).trans (W4_of_ne m ρ c Cert.KernelIdeal.main_v6 (by decide)).symm)
theorem agg1_nrm (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U2 m' c (Proc.devRef .tc Cert.ReferenceIdeal.main_v29) = W4 m ρ c (Proc.devRef .tc Cert.KernelIdeal.main_v30) := by
  have hR : U2 m' c (Proc.devRef .tc Cert.ReferenceIdeal.main_v29) = U1 m' c (Proc.devRef .tc Cert.ReferenceIdeal.main_v29) := by unfold U2; host_line; all_goals rfl
  exact hR.trans ((idx1_nrm m ρ m' c h1).trans (W4_of_ne m ρ c Cert.KernelIdeal.main_v30 (by decide)).symm)

set_option maxHeartbeats 600000 in
/-- Layer 1, the aggregation: the same gather, scaling and scatter-add of equal products by equal index arrays. -/
theorem agg1_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) : U3 m' c (Proc.devRef .tc Cert.ReferenceIdeal.main_v43) = W5 m ρ c (Proc.devRef .tc Cert.KernelIdeal.main_v44) := by
  unfold U3
  show StableHlo.after agg1Ops (U2 m' c) (Proc.devRef .tc Cert.ReferenceIdeal.main_v43) = StableHlo.after hostOps1 (W4 m ρ c) (Proc.devRef .tc Cert.KernelIdeal.main_v44)
  host_line
  rw [agg1_row m ρ m' c h1, agg1_col m ρ m' c h1, agg1_nrm m ρ m' c h1, dot1_agree m ρ m' c h0 h2]
  rfl

/-! The inlined rectifier's operations carry their values through typed references; at a literal buffer that transport is
    the identity. -/
theorem to_v47 (v : (⟨Cert.ReferenceIdeal.S100000x128, .f32⟩ : BufTy).Contents (Elt Ideal)) : (TRef.of (T := (⟨Cert.ReferenceIdeal.S100000x128, .f32⟩ : BufTy)) Cert.ReferenceIdeal.main_v47).toBuf v = v := rfl
theorem of_v46 (v : Cert.ReferenceIdeal.main_v46.ty.Contents (Elt Ideal)) : (TRef.of (T := (⟨Cert.ReferenceIdeal.S100000x128, .f32⟩ : BufTy)) Cert.ReferenceIdeal.main_v46).ofBuf v = v := rfl
theorem to_call1_v0 (v : (⟨Cert.ReferenceIdeal.S100000x128, .f32⟩ : BufTy).Contents (Elt Ideal)) : (TRef.of (T := (⟨Cert.ReferenceIdeal.S100000x128, .f32⟩ : BufTy)) Cert.ReferenceIdeal.main_call1_v0).toBuf v = v := rfl
theorem of_call1_v0 (v : Cert.ReferenceIdeal.main_call1_v0.ty.Contents (Elt Ideal)) : (TRef.of (T := (⟨Cert.ReferenceIdeal.S100000x128, .f32⟩ : BufTy)) Cert.ReferenceIdeal.main_call1_v0).ofBuf v = v := rfl
theorem to_call1_cst (v : (⟨Cert.ReferenceIdeal.S_, .f32⟩ : BufTy).Contents (Elt Ideal)) : (TRef.of (T := (⟨Cert.ReferenceIdeal.S_, .f32⟩ : BufTy)) Cert.ReferenceIdeal.main_call1_cst).toBuf v = v := rfl
theorem of_call1_cst (v : Cert.ReferenceIdeal.main_call1_cst.ty.Contents (Elt Ideal)) : (TRef.of (T := (⟨Cert.ReferenceIdeal.S_, .f32⟩ : BufTy)) Cert.ReferenceIdeal.main_call1_cst).ofBuf v = v := rfl

/-- Layer 1, the bias and the rectifier: the host's broadcast, add and maximum and the kernel's row-tiled region are one
    function of the aggregated features and the first bias vector. -/
theorem bias1_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) : U4 m' c (Proc.devRef .tc Cert.ReferenceIdeal.main_v47) = W6 m ρ c (Proc.devRef .tc Cert.KernelIdeal.main_v46) := by
  have hb : W5 m ρ c (Proc.devRef .tc Cert.KernelIdeal.main_v45) = shapeCast Cert.KernelIdeal.S1x128 (m ((c.tc : Thread Cert.KernelIdeal.nD Cert.KernelIdeal.τ).loc Cert.KernelIdeal.main_arg3)) Cert.KernelIdeal.Facts₀.shapeCasts_S128_S1x128 := by
    show StableHlo.after hostOps1 (W4 m ρ c) (Proc.devRef .tc Cert.KernelIdeal.main_v45) = _
    host_line
    rw [W4_arg3 m ρ c]
    rfl
  have hK : W6 m ρ c (Proc.devRef .tc Cert.KernelIdeal.main_v46) = Cert.KernelIdeal.RowBias.biasRelu (W5 m ρ c (Proc.devRef .tc Cert.KernelIdeal.main_v44)) (shapeCast Cert.KernelIdeal.S1x128 (m ((c.tc : Thread Cert.KernelIdeal.nD Cert.KernelIdeal.τ).loc Cert.KernelIdeal.main_arg3)) Cert.KernelIdeal.Facts₀.shapeCasts_S128_S1x128) :=
    (W6_arr m ρ c 2).trans (Cert.KernelIdeal.RowBias.value1 (V5 m ρ) c _ _ rfl hb)
  unfold U4
  host_line
  rw [to_v47, of_v46, of_call1_v0, to_call1_v0, of_call1_cst, to_call1_cst]
  rw [U3_arg3 m' c, Cert.ReferenceIdeal.Laws.bias1_eq, hK, agg1_agree m ρ m' c h0 h1 h2, h3]

end Cert.Bridge

end
-- ==== Proof.BridgeIdx2.lean ====
/-
  Layer 2, the index side, in both programs: the same lines as in layer 1, on fresh buffers, again from the edge array.
-/
import proofs.«174836_j77653008712280_1_alg».proof.Proof.BridgeArgs
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal.Gen Cert.ReferenceIdeal.HostRun

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ### The index side, first stage: lists, degrees, comparison and inverse square root — the same host operations on the same edge array -/

set_option maxHeartbeats 4000000 in
theorem idx2a_row (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U5a m' c (Proc.devRef .tc Cert.ReferenceIdeal.main_v53) = W7 m ρ c (Proc.devRef .tc Cert.KernelIdeal.main_v52) := by
  unfold U5a
  show StableHlo.after idx2aOps (U4 m' c) (Proc.devRef .tc Cert.ReferenceIdeal.main_v53) = StableHlo.after hostOps2 (W6 m ρ c) (Proc.devRef .tc Cert.KernelIdeal.main_v52)
  host_line
  rw [U4_arg1 m' c, W6_arg1 m ρ c, h1]
  first | done | rfl
set_option maxHeartbeats 4000000 in
theorem idx2a_col (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U5a m' c (Proc.devRef .tc Cert.ReferenceIdeal.main_v54) = W7 m ρ c (Proc.devRef .tc Cert.KernelIdeal.main_v53) := by
  unfold U5a
  show StableHlo.after idx2aOps (U4 m' c) (Proc.devRef .tc Cert.ReferenceIdeal.main_v54) = StableHlo.after hostOps2 (W6 m ρ c) (Proc.devRef .tc Cert.KernelIdeal.main_v53)
  host_line
  rw [U4_arg1 m' c, W6_arg1 m ρ c, h1]
  first | done | rfl
set_option maxHeartbeats 4000000 in
theorem idx2a_cmp (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U5a m' c (Proc.devRef .tc Cert.ReferenceIdeal.main_v60) = W7 m ρ c (Proc.devRef .tc Cert.KernelIdeal.main_v59) := by
  unfold U5a
  show StableHlo.after idx2aOps (U4 m' c) (Proc.devRef .tc Cert.ReferenceIdeal.main_v60) = StableHlo.after hostOps2 (W6 m ρ c) (Proc.devRef .tc Cert.KernelIdeal.main_v59)
  host_line
  rw [U4_arg1 m' c, W6_arg1 m ρ c, h1]
  first | done | rfl
set_option maxHeartbeats 4000000 in
theorem idx2a_rsq (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U5a m' c (Proc.devRef .tc Cert.ReferenceIdeal.main_v61) = W7 m ρ c (Proc.devRef .tc Cert.KernelIdeal.main_v60) := by
  unfold U5a
  show StableHlo.after idx2aOps (U4 m' c) (Proc.devRef .tc Cert.ReferenceIdeal.main_v61) = StableHlo.after hostOps2 (W6 m ρ c) (Proc.devRef .tc Cert.KernelIdeal.main_v60)
  host_line
  rw [U4_arg1 m' c, W6_arg1 m ρ c, h1]
  first | done | rfl
/-- The zero the select falls back to: a scalar on the reference's side, already spread over the nodes on the kernel's. -/
theorem idx2a_zeroR : U5a m' c (Proc.devRef .tc Cert.ReferenceIdeal.main_cst_12) = constant (F := Ideal) Cert.ReferenceIdeal.S_ .f32 0x00000000#32 := by
  unfold U5a
  host_line
  all_goals rfl
theorem idx2a_zeroK : W7 m ρ c (Proc.devRef .tc Cert.KernelIdeal.main_v61) = broadcastInDim Cert.KernelIdeal.S100000 ![] Cert.KernelIdeal.Facts₀.bcast_S_S100000 (constant (F := Ideal) Cert.KernelIdeal.S_ .f32 0x00000000#32) := by
  show StableHlo.after hostOps2 (W6 m ρ c) (Proc.devRef .tc Cert.KernelIdeal.main_v61) = _
  host_line
  all_goals rfl

/-! ### Second stage: the factor of every node — inverse square root of the degree where positive, zero elsewhere -/

set_option maxHeartbeats 4000000 in
theorem idx2b_dis (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U5b m' c (Proc.devRef .tc Cert.ReferenceIdeal.main_v62) = W8 m ρ c (Proc.devRef .tc Cert.KernelIdeal.main_v62) := by
  unfold U5b
  show StableHlo.after idx2bOps (U5a m' c) (Proc.devRef .tc Cert.ReferenceIdeal.main_v62) = StableHlo.after hostOps2_1 (W7 m ρ c) (Proc.devRef .tc Cert.KernelIdeal.main_v62)
  generalize hW : W7 m ρ c = VK
  host_line
  subst hW
  rw [idx2a_cmp m ρ m' c h1, idx2a_rsq m ρ m' c h1, idx2a_zeroR m' c, idx2a_zeroK m ρ c]
  first | done | rfl
set_option maxHeartbeats 4000000 in
theorem idx2b_row (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U5b m' c (Proc.devRef .tc Cert.ReferenceIdeal.main_v53) = W8 m ρ c (Proc.devRef .tc Cert.KernelIdeal.main_v52) := by
  unfold U5b
  show StableHlo.after idx2bOps (U5a m' c) (Proc.devRef .tc Cert.ReferenceIdeal.main_v53) = StableHlo.after hostOps2_1 (W7 m ρ c) (Proc.devRef .tc Cert.KernelIdeal.main_v52)
  generalize hW : W7 m ρ c = VK
  host_line
  subst hW
  rw [idx2a_row m ρ m' c h1]
  first | done | rfl
set_option maxHeartbeats 4000000 in
theorem idx2b_col (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U5b m' c (Proc.devRef .tc Cert.ReferenceIdeal.main_v54) = W8 m ρ c (Proc.devRef .tc Cert.KernelIdeal.main_v53) := by
  unfold U5b
  show StableHlo.after idx2bOps (U5a m' c) (Proc.devRef .tc Cert.ReferenceIdeal.main_v54) = StableHlo.after hostOps2_1 (W7 m ρ c) (Proc.devRef .tc Cert.KernelIdeal.main_v53)
  generalize hW : W7 m ρ c = VK
  host_line
  subst hW
  rw [idx2a_col m ρ m' c h1]
  first | done | rfl

/-! ### Third stage: the weight of every edge — the product of its end points' factors -/

set_option maxHeartbeats 4000000 in
/-- Layer 2, the index side: the edge weights. -/
theorem idx2_nrm (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U5 m' c (Proc.devRef .tc Cert.ReferenceIdeal.main_v77) = W9 m ρ c (Proc.devRef .tc Cert.KernelIdeal.main_v77) := by
  unfold U5
  show StableHlo.after idx2cOps (U5b m' c) (Proc.devRef .tc Cert.ReferenceIdeal.main_v77) = StableHlo.after hostOps2_2 (W8 m ρ c) (Proc.devRef .tc Cert.KernelIdeal.main_v77)
  generalize hW : W8 m ρ c = VK
  host_line
  subst hW
  rw [idx2b_dis m ρ m' c h1, idx2b_row m ρ m' c h1, idx2b_col m ρ m' c h1]
  first | done | rfl
set_option maxHeartbeats 4000000 in
/-- Layer 2, the index side: the source list. -/
theorem idx2_row (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U5 m' c (Proc.devRef .tc Cert.ReferenceIdeal.main_v53) = W9 m ρ c (Proc.devRef .tc Cert.KernelIdeal.main_v52) := by
  unfold U5
  show StableHlo.after idx2cOps (U5b m' c) (Proc.devRef .tc Cert.ReferenceIdeal.main_v53) = StableHlo.after hostOps2_2 (W8 m ρ c) (Proc.devRef .tc Cert.KernelIdeal.main_v52)
  generalize hW : W8 m ρ c = VK
  host_line
  subst hW
  rw [idx2b_row m ρ m' c h1]
  first | done | rfl
set_option maxHeartbeats 4000000 in
/-- Layer 2, the index side: the target list. -/
theorem idx2_col (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U5 m' c (Proc.devRef .tc Cert.ReferenceIdeal.main_v54) = W9 m ρ c (Proc.devRef .tc Cert.KernelIdeal.main_v53) := by
  unfold U5
  show StableHlo.after idx2cOps (U5b m' c) (Proc.devRef .tc Cert.ReferenceIdeal.main_v54) = StableHlo.after hostOps2_2 (W8 m ρ c) (Proc.devRef .tc Cert.KernelIdeal.main_v53)
  generalize hW : W8 m ρ c = VK
  host_line
  subst hW
  rw [idx2b_col m ρ m' c h1]
  first | done | rfl

end Cert.Bridge

end
-- ==== Proof.BridgeL2.lean ====
/-
  Layer 2 after the index side, and the whole line: the dense product of the hidden features, the aggregation, the bias —
  the result. From argument arrays that agree, the reference's result buffer ends holding what the kernel's last region
  leaves in its output array.
-/
import proofs.«174836_j77653008712280_1_alg».proof.Proof.BridgeL1
import proofs.«174836_j77653008712280_1_alg».proof.Proof.BridgeIdx2
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal.Gen Cert.ReferenceIdeal.HostRun

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- Entering the second product, the hidden features are still what the first layer left. -/
theorem dot2_in (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) : U5 m' c (Proc.devRef .tc Cert.ReferenceIdeal.main_v47) = W9 m ρ c (Proc.devRef .tc Cert.KernelIdeal.main_v46) := by
  have hR : U5 m' c (Proc.devRef .tc Cert.ReferenceIdeal.main_v47) = U4 m' c (Proc.devRef .tc Cert.ReferenceIdeal.main_v47) := by
    have e1 : U5 m' c (Proc.devRef .tc Cert.ReferenceIdeal.main_v47) = U5b m' c (Proc.devRef .tc Cert.ReferenceIdeal.main_v47) := by unfold U5; host_line; all_goals rfl
    have e2 : U5b m' c (Proc.devRef .tc Cert.ReferenceIdeal.main_v47) = U5a m' c (Proc.devRef .tc Cert.ReferenceIdeal.main_v47) := by unfold U5b; host_line; all_goals rfl
    have e3 : U5a m' c (Proc.devRef .tc Cert.ReferenceIdeal.main_v47) = U4 m' c (Proc.devRef .tc Cert.ReferenceIdeal.main_v47) := by unfold U5a; host_line; all_goals rfl
    exact e1.trans (e2.trans e3)
  have hK : W9 m ρ c (Proc.devRef .tc Cert.KernelIdeal.main_v46) = W6 m ρ c (Proc.devRef .tc Cert.KernelIdeal.main_v46) := by
    show StableHlo.after hostOps2_2 (StableHlo.after hostOps2_1 (StableHlo.after hostOps2 (W6 m ρ c))) (Proc.devRef .tc Cert.KernelIdeal.main_v46) = _
    host_line
    all_goals rfl
  exact hR.trans ((bias1_agree m ρ m' c h0 h1 h2 h3).trans hK.symm)

/-- Layer 2, the dense product. -/
theorem dot2_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) : U6 m' c (Proc.devRef .tc Cert.ReferenceIdeal.main_v78) = W10 m ρ c (Proc.devRef .tc Cert.KernelIdeal.main_v78) := by
  have hK : W10 m ρ c (Proc.devRef .tc Cert.KernelIdeal.main_v78) = Cert.KernelIdeal.Regions.prodB (W9 m ρ c (Proc.devRef .tc Cert.KernelIdeal.main_v46)) (m ((c.tc : Thread Cert.KernelIdeal.nD Cert.KernelIdeal.τ).loc Cert.KernelIdeal.main_arg4)) :=
    (W10_arr m ρ c 2).trans (Cert.KernelIdeal.Regions.value2 (V9 m ρ) c _ _ rfl (W9_arg4 m ρ c))
  unfold U6
  host_line
  rw [U5_arg4 m' c, Cert.ReferenceIdeal.Laws.dot2_eq, hK, dot2_in m ρ m' c h0 h1 h2 h3, h4]

theorem agg2_row (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U6 m' c (Proc.devRef .tc Cert.ReferenceIdeal.main_v53) = W10 m ρ c (Proc.devRef .tc Cert.KernelIdeal.main_v52) := by
  have hR : U6 m' c (Proc.devRef .tc Cert.ReferenceIdeal.main_v53) = U5 m' c (Proc.devRef .tc Cert.ReferenceIdeal.main_v53) := by unfold U6; host_line; all_goals rfl
  exact hR.trans ((idx2_row m ρ m' c h1).trans (W10_of_ne m ρ c Cert.KernelIdeal.main_v52 (by decide)).symm)
theorem agg2_col (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U6 m' c (Proc.devRef .tc Cert.ReferenceIdeal.main_v54) = W10 m ρ c (Proc.devRef .tc Cert.KernelIdeal.main_v53) := by
  have hR : U6 m' c (Proc.devRef .tc Cert.ReferenceIdeal.main_v54) = U5 m' c (Proc.devRef .tc Cert.ReferenceIdeal.main_v54) := by unfold U6; host_line; all_goals rfl
  exact hR.trans ((idx2_col m ρ m' c h1).trans (W10_of_ne m ρ c Cert.KernelIdeal.main_v53 (by decide)).symm)
theorem agg2_nrm (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) : U6 m' c (Proc.devRef .tc Cert.ReferenceIdeal.main_v77) = W10 m ρ c (Proc.devRef .tc Cert.KernelIdeal.main_v77) := by
  have hR : U6 m' c (Proc.devRef .tc Cert.ReferenceIdeal.main_v77) = U5 m' c (Proc.devRef .tc Cert.ReferenceIdeal.main_v77) := by unfold U6; host_line; all_goals rfl
  exact hR.trans ((idx2_nrm m ρ m' c h1).trans (W10_of_ne m ρ c Cert.KernelIdeal.main_v77 (by decide)).symm)

set_option maxHeartbeats 4000000 in
/-- Layer 2, the aggregation. -/
theorem agg2_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) : U7 m' c (Proc.devRef .tc Cert.ReferenceIdeal.main_v91) = W11 m ρ c (Proc.devRef .tc Cert.KernelIdeal.main_v91) := by
  unfold U7
  show StableHlo.after agg2Ops (U6 m' c) (Proc.devRef .tc Cert.ReferenceIdeal.main_v91) = StableHlo.after hostOps3 (W10 m ρ c) (Proc.devRef .tc Cert.KernelIdeal.main_v91)
  host_line
  rw [agg2_row m ρ m' c h1, agg2_col m ρ m' c h1, agg2_nrm m ρ m' c h1, dot2_agree m ρ m' c h0 h1 h2 h3 h4]
  rfl

/-- Layer 2, the bias: the result. -/
theorem bias2_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) : U8 m' c (Proc.devRef .tc Cert.ReferenceIdeal.main_v94) = W12 m ρ c (Proc.devRef .tc Cert.KernelIdeal.main_v93) := by
  have hb : W11 m ρ c (Proc.devRef .tc Cert.KernelIdeal.main_v92) = shapeCast Cert.KernelIdeal.S1x64 (m ((c.tc : Thread Cert.KernelIdeal.nD Cert.KernelIdeal.τ).loc Cert.KernelIdeal.main_arg5)) Cert.KernelIdeal.Facts₀.shapeCasts_S64_S1x64 := by
    show StableHlo.after hostOps3 (W10 m ρ c) (Proc.devRef .tc Cert.KernelIdeal.main_v92) = _
    host_line
    rw [W10_arg5 m ρ c]
    rfl
  have hK : W12 m ρ c (Proc.devRef .tc Cert.KernelIdeal.main_v93) = Cert.KernelIdeal.RowBias.biasAdd (W11 m ρ c (Proc.devRef .tc Cert.KernelIdeal.main_v91)) (shapeCast Cert.KernelIdeal.S1x64 (m ((c.tc : Thread Cert.KernelIdeal.nD Cert.KernelIdeal.τ).loc Cert.KernelIdeal.main_arg5)) Cert.KernelIdeal.Facts₀.shapeCasts_S64_S1x64) :=
    (W12_arr m ρ c 2).trans (Cert.KernelIdeal.RowBias.value3 (V11 m ρ) c _ _ rfl hb)
  unfold U8
  host_line
  rw [U7_arg5 m' c, Cert.ReferenceIdeal.Laws.bias2_eq, hK, agg2_agree m ρ m' c h0 h1 h2 h3 h4, h5]

/-! ## The whole line -/

/-- From argument arrays that agree, the reference's result buffer ends holding what the kernel's last region leaves
    in its output array. -/
theorem result_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after ops (launchContents m' c) (Proc.devRef .tc Cert.ReferenceIdeal.main_v94) = W12 m ρ c (Proc.devRef .tc Cert.KernelIdeal.main_v93) :=
  (congrFun (after_ops m' c) _).trans (bias2_agree m ρ m' c h0 h1 h2 h3 h4 h5)

end Cert.Bridge

end
-- ==== Proof.lean ====
/-
  The certificate's claims.

  The kernel computes a two-layer graph convolution: per layer, the features times a weight matrix, then rows gathered
  by source node, scaled by the symmetric normalisation weight of the edge, summed by target node, plus a bias (and a
  rectifier after the first layer). The dense product and the bias are row-tiled TensorCore regions; the index side and
  the gather-scale-scatter aggregation are host operations, the same ones the reference performs.

  Frames: the two kernel programs' are the generated frame certificates; the reference's is its run as a line of host
  operations, which writes no argument. The idealization rewrote nothing, so the preservation claim is trivial. The
  algebraic claim: both programs run, the kernel's result is what its last region leaves in its output array, and the
  reference's result buffer ends holding the same array — the two programs agree piece by piece (Proof/BridgeL2.lean),
  the only mathematics being that a row-tiled product into a zero accumulator is the host's dot_general and a row-tiled
  broadcast-add is the host's, on extended reals, with no finiteness needed.
-/
import proofs.«174836_j77653008712280_1_alg».proof.Defs
import proofs.«174836_j77653008712280_1_alg».proof.Proof.Gen.Kernel
import proofs.«174836_j77653008712280_1_alg».proof.Proof.Gen.Kernel.Skeleton
import proofs.«174836_j77653008712280_1_alg».proof.Proof.Gen.Kernel.Launch
import proofs.«174836_j77653008712280_1_alg».proof.Proof.Gen.Kernel.Points
import proofs.«174836_j77653008712280_1_alg».proof.Proof.Gen.Kernel.Frame
import proofs.«174836_j77653008712280_1_alg».proof.Proof.Gen.KernelIdeal
import proofs.«174836_j77653008712280_1_alg».proof.Proof.Gen.KernelIdeal.Skeleton
import proofs.«174836_j77653008712280_1_alg».proof.Proof.Gen.KernelIdeal.Launch
import proofs.«174836_j77653008712280_1_alg».proof.Proof.Gen.KernelIdeal.Points
import proofs.«174836_j77653008712280_1_alg».proof.Proof.Gen.KernelIdeal.Frame
import proofs.«174836_j77653008712280_1_alg».proof.Proof.Gen.ReferenceIdeal
import proofs.«174836_j77653008712280_1_alg».proof.Proof.Gen.Pre_finite_inputs
import proofs.«174836_j77653008712280_1_alg».proof.Proof.KernelRun
import proofs.«174836_j77653008712280_1_alg».proof.Proof.RefRun
import proofs.«174836_j77653008712280_1_alg».proof.Proof.BridgeArgs
import proofs.«174836_j77653008712280_1_alg».proof.Proof.BridgeL2
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a line of host operations none of which writes an argument array. -/
theorem frame_referenceIdeal : Cert.frame_ReferenceIdeal := fun m ρ _ =>
  (θ_run Cert.ReferenceIdeal.defs _ _).mono (fun _ h c =>
    ⟨(h c Cert.ReferenceIdeal.main_arg0).trans (Cert.Bridge.ref_arg0 m c),
     (h c Cert.ReferenceIdeal.main_arg1).trans (Cert.Bridge.ref_arg1 m c),
     (h c Cert.ReferenceIdeal.main_arg2).trans (Cert.Bridge.ref_arg2 m c),
     (h c Cert.ReferenceIdeal.main_arg3).trans (Cert.Bridge.ref_arg3 m c),
     (h c Cert.ReferenceIdeal.main_arg4).trans (Cert.Bridge.ref_arg4 m c),
     (h c Cert.ReferenceIdeal.main_arg5).trans (Cert.Bridge.ref_arg5 m c)⟩)
    (Cert.ReferenceIdeal.HostRun.run (F := Ideal) m ρ)

/-- The idealization rewrote no operation. -/
theorem preserves : Cert.preserves_Kernel_KernelIdeal := trivial

/-- Both programs run; the kernel's result is the array its last region leaves, and from argument arrays that agree the
    reference's result buffer ends holding the same array. -/
theorem algebraic : Cert.algebraic_KernelIdeal_ReferenceIdeal := by
  intro m ρ m' ρ' _ hagree
  refine ⟨fun c => Cert.KernelIdeal.Gen.W12 m ρ c (Proc.devRef .tc Cert.KernelIdeal.main_v93),
    Cert.KernelIdeal.Named.run_named m ρ, ?_⟩
  refine (θ_run Cert.ReferenceIdeal.defs _ _).mono (fun r h c => ?_) (Cert.ReferenceIdeal.HostRun.run (F := Ideal) m' ρ')
  obtain ⟨h0, h1, h2, h3, h4, h5⟩ := hagree c
  exact ⟨(h c Cert.ReferenceIdeal.main_v94).trans (Cert.Bridge.result_agree m ρ m' c h0 h1 h2 h3 h4 h5),
    (h c Cert.ReferenceIdeal.main_arg0).trans (Cert.Bridge.ref_arg0 m' c),
    (h c Cert.ReferenceIdeal.main_arg1).trans (Cert.Bridge.ref_arg1 m' c),
    (h c Cert.ReferenceIdeal.main_arg2).trans (Cert.Bridge.ref_arg2 m' c),
    (h c Cert.ReferenceIdeal.main_arg3).trans (Cert.Bridge.ref_arg3 m' c),
    (h c Cert.ReferenceIdeal.main_arg4).trans (Cert.Bridge.ref_arg4 m' c),
    (h c Cert.ReferenceIdeal.main_arg5).trans (Cert.Bridge.ref_arg5 m' c)⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
